-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x2000000 : Shape := ⟨2, ![2, 2000000]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S200000x128 .f32) (main_arg1 : IVec S2x2000000 32) (main_arg2 : FVec F S128x128 .f32) (main_arg3 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S200000x128 : Shape := ⟨2, ![200000, 128]⟩
abbrev S2x2000000 : Shape := ⟨2, ![2, 2000000]⟩
abbrev S128x128 : Shape := ⟨2, ![128, 128]⟩
abbrev S128 : Shape := ⟨1, ![128]⟩
abbrev S1x2000000 : Shape := ⟨2, ![1, 2000000]⟩
abbrev S2000000 : Shape := ⟨1, ![2000000]⟩
abbrev S_ : Shape := ⟨0, ![]⟩
abbrev S200000 : Shape := ⟨1, ![200000]⟩
abbrev S2000000x1 : Shape := ⟨2, ![2000000, 1]⟩
abbrev S50000 : Shape := ⟨1, ![50000]⟩
abbrev S200000x1 : Shape := ⟨2, ![200000, 1]⟩
abbrev S50000x1 : Shape := ⟨2, ![50000, 1]⟩
abbrev S2000000x128 : Shape := ⟨2, ![2000000, 128]⟩
abbrev S50000x128 : Shape := ⟨2, ![50000, 128]⟩
abbrev S5000x128 : Shape := ⟨2, ![5000, 128]⟩
abbrev S5000x1 : Shape := ⟨2, ![5000, 1]⟩
abbrev S4000x128 : Shape := ⟨2, ![4000, 128]⟩
abbrev S4000x1 : Shape := ⟨2, ![4000, 1]⟩
abbrev S1x128 : Shape := ⟨2, ![1, 128]⟩

abbrev nBuf : Space → Nat
  | .hbm => 70
  | .vmem => 14
  | .smem => 0
  | _ => 0

abbrev bufTy : (tb : Table) → Fin (tcTables nBuf tb) → BufTy
  | .hbm, ⟨0, _⟩ => ⟨S200000x128, .f32⟩
  | .hbm, ⟨1, _⟩ => ⟨S2x2000000, .i32⟩
  | .hbm, ⟨2, _⟩ => ⟨S128x128, .f32⟩
  | .hbm, ⟨3, _⟩ => ⟨S128, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S_, .i32⟩
  | .hbm, ⟨9, _⟩ => ⟨S2000000, .i32⟩
  | .hbm, ⟨10, _⟩ => ⟨S_, .i32⟩
  | .hbm, ⟨11, _⟩ => ⟨S200000, .i32⟩
  | .hbm, ⟨12, _⟩ => ⟨S2000000x1, .i32⟩
  | .hbm, ⟨13, _⟩ => ⟨S200000, .i32⟩
  | .hbm, ⟨14, _⟩ => ⟨S_, .i32⟩
  | .hbm, ⟨15, _⟩ => ⟨S50000, .i32⟩
  | .hbm, ⟨16, _⟩ => ⟨S2000000x1, .i32⟩
  | .hbm, ⟨17, _⟩ => ⟨S50000, .i32⟩
  | .hbm, ⟨18, _⟩ => ⟨S_, .i32⟩
  | .hbm, ⟨19, _⟩ => ⟨S200000, .i32⟩
  | .hbm, ⟨20, _⟩ => ⟨S200000, .i1⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S200000x1, .f32⟩
  | .hbm, ⟨30, _⟩ => ⟨S_, .i32⟩
  | .hbm, ⟨31, _⟩ => ⟨S50000, .i32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S_, .i32⟩
  | .hbm, ⟨43, _⟩ => ⟨S2000000, .i32⟩
  | .hbm, ⟨44, _⟩ => ⟨S2000000, .i1⟩
  | .hbm, ⟨45, _⟩ => ⟨S_, .i32⟩
  | .hbm, ⟨46, _⟩ => ⟨S2000000, .i32⟩
  | .hbm, ⟨47, _⟩ => ⟨S2000000, .i32⟩
  | .hbm, ⟨48, _⟩ => ⟨S2000000, .i32⟩
  | .hbm, ⟨49, _⟩ => ⟨S2000000x1, .i32⟩
  | .hbm, ⟨50, _⟩ => ⟨S2000000x128, .f32⟩
  | .hbm, ⟨51, _⟩ => ⟨S_, .f32⟩
  | .hbm, ⟨52, _⟩ => ⟨S50000x128, .f32⟩
  | .hbm, ⟨53, _⟩ => ⟨S2000000x1, .i32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x128, .f32⟩
  | .hbm, ⟨65, _⟩ => ⟨S_, .f32⟩
  | .hbm, ⟨66, _⟩ => ⟨S200000x128, .f32⟩
  | .hbm, ⟨67, _⟩ => ⟨S2000000x1, .i32⟩
  | .hbm, ⟨68, _⟩ => ⟨S200000x128, .f32⟩
  | .hbm, ⟨69, _⟩ => ⟨S200000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S128, .f32⟩
  | .local _ .vmem, ⟨12, _⟩ => ⟨S4000x128, .f32⟩
  | .local _ .vmem, ⟨13, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S200000 : S_.BroadcastsInDim S200000 (![] : Fin 0 → Fin S200000.rank)
  bcast_S2000000_S2000000x1_0 : S2000000.BroadcastsInDim S2000000x1 (![0] : Fin 1 → Fin S2000000x1.rank)
  bcast_S_S50000 : S_.BroadcastsInDim S50000 (![] : Fin 0 → Fin S50000.rank)
  shapeCasts_S200000_S200000x1 : S200000.ShapeCasts S200000x1
  shapeCasts_S50000_S50000x1 : S50000.ShapeCasts S50000x1
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S200000x128 : S_.BroadcastsInDim S200000x128 (![] : Fin 0 → Fin S200000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S200000_S2000000x1_S2000000_n_0_0_1_wf : ScatterDims.WF S200000 S2000000x1 S2000000 [] [0] [0] 1
  scatter_S50000_S2000000x1_S2000000_n_0_0_1_wf : ScatterDims.WF S50000 S2000000x1 S2000000 [] [0] [0] 1
  gather_S200000x128_S2000000x1_S2000000x128_1_0_n_n_0_1_1128_wf : GatherDims.WF S200000x128 S2000000x1 S2000000x128 [1] [0] [] [0] [] 1 ![1, 128]
  scatter_S50000x128_S2000000x1_S2000000x128_1_0_0_1_wf : ScatterDims.WF S50000x128 S2000000x1 S2000000x128 [1] [0] [0] 1
  dot_S5000x128_S128x128_S5000x128_1_0_0_1_n_n_wf : DotDims.WF S5000x128 S128x128 S5000x128 [1] [0] [0] [1] [] []
  gather_S50000x128_S2000000x1_S2000000x128_1_0_n_n_0_1_1128_wf : GatherDims.WF S50000x128 S2000000x1 S2000000x128 [1] [0] [] [0] [] 1 ![1, 128]
  scatter_S200000x128_S2000000x1_S2000000x128_1_0_0_1_wf : ScatterDims.WF S200000x128 S2000000x1 S2000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S200000x1.size a
  hwx1_1 : ∀ i : grid1.Coords, EltTy.bits .f32 = 32 ∨ (Rect.block (s := S200000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S200000x128.size a
  hwx1_3 : ∀ i : grid1.Coords, EltTy.bits .f32 = 32 ∨ (Rect.block (s := S200000x128) S4000x128.size (cc1_transform_3 i) (hinb1_3 i)).WholeWords (EltTy.packing .f32)

variable [Facts₀]

def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S50000x128_S2000000x1_S2000000x128_1_0_0_1 : ScatterDims S50000x128 S2000000x1 S2000000x128 where
  updateWindowDims := [1]
  insertedWindowDims := [0]
  scatterDimsToOperandDims := [0]
  indexVectorDim := 1
  wf := scatter_S50000x128_S2000000x1_S2000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S2000000x1_S2000000x128_1_0_n_n_0_1_1128 : GatherDims S50000x128 S2000000x1 S2000000x128 where
  offsetDims := [1]
  collapsedSliceDims := [0]
  operandBatchingDims := []
  startIndicesBatchingDims := []
  startIndexMap := [0]
  indexVectorDim := 1
  sliceSizes := ![1, 128]
  wf := gather_S50000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x2000000 : Shape := ⟨2, ![2, 2000000]⟩
abbrev S128x128 : Shape := ⟨2, ![128, 128]⟩
abbrev S128 : Shape := ⟨1, ![128]⟩
abbrev S1x2000000 : Shape := ⟨2, ![1, 2000000]⟩
abbrev S2000000 : Shape := ⟨1, ![2000000]⟩
abbrev S_ : Shape := ⟨0, ![]⟩
abbrev S200000 : Shape := ⟨1, ![200000]⟩
abbrev S2000000x1 : Shape := ⟨2, ![2000000, 1]⟩
abbrev S50000 : Shape := ⟨1, ![50000]⟩
abbrev S2000000x128 : Shape := ⟨2, ![2000000, 128]⟩
abbrev S50000x128 : Shape := ⟨2, ![50000, 128]⟩
abbrev S50000x1 : Shape := ⟨2, ![50000, 1]⟩
abbrev S200000x1 : Shape := ⟨2, ![200000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x2000000, .i32⟩
  | .hbm, ⟨2, _⟩ => ⟨S128x128, .f32⟩
  | .hbm, ⟨3, _⟩ => ⟨S128, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S200000x128, .f32⟩
  | .hbm, ⟨9, _⟩ => ⟨S_, .f32⟩
  | .hbm, ⟨10, _⟩ => ⟨S2000000, .f32⟩
  | .hbm, ⟨11, _⟩ => ⟨S_, .f32⟩
  | .hbm, ⟨12, _⟩ => ⟨S200000, .f32⟩
  | .hbm, ⟨13, _⟩ => ⟨S2000000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S_, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .f32⟩
  | .hbm, ⟨26, _⟩ => ⟨S50000, .f32⟩
  | .hbm, ⟨27, _⟩ => ⟨S2000000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000x128, .f32⟩
  | .hbm, ⟨48, _⟩ => ⟨S_, .f32⟩
  | .hbm, ⟨49, _⟩ => ⟨S50000x128, .f32⟩
  | .hbm, ⟨50, _⟩ => ⟨S2000000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S2000000, .i32⟩
  | .hbm, ⟨57, _⟩ => ⟨S2000000, .i1⟩
  | .hbm, ⟨58, _⟩ => ⟨S_, .i32⟩
  | .hbm, ⟨59, _⟩ => ⟨S2000000, .i32⟩
  | .hbm, ⟨60, _⟩ => ⟨S2000000, .i32⟩
  | .hbm, ⟨61, _⟩ => ⟨S2000000, .i32⟩
  | .hbm, ⟨62, _⟩ => ⟨S2000000x1, .i32⟩
  | .hbm, ⟨63, _⟩ => ⟨S2000000x128, .f32⟩
  | .hbm, ⟨64, _⟩ => ⟨S_, .f32⟩
  | .hbm, ⟨65, _⟩ => ⟨S200000x128, .f32⟩
  | .hbm, ⟨66, _⟩ => ⟨S2000000x1, .i32⟩
  | .hbm, ⟨67, _⟩ => ⟨S200000x128, .f32⟩
  | .hbm, ⟨68, _⟩ => ⟨S200000x1, .f32⟩
  | .hbm, ⟨69, _⟩ => ⟨S200000x128, .f32⟩
  | .hbm, ⟨70, _⟩ => ⟨S200000x128, .f32⟩
  | .hbm, ⟨71, _⟩ => ⟨S1x128, .f32⟩
  | .hbm, ⟨72, _⟩ => ⟨S200000x128, .f32⟩
  | .hbm, ⟨73, _⟩ => ⟨S200000x128, .f32⟩
  | .hbm, ⟨74, _⟩ => ⟨S_, .f32⟩
  | .hbm, ⟨75, _⟩ => ⟨S200000x128, .f32⟩
  | .hbm, ⟨76, _⟩ => ⟨S200000x128, .i1⟩
  | .hbm, ⟨77, _⟩ => ⟨S_, .f32⟩
  | .hbm, ⟨78, _⟩ => ⟨S200000x128, .f32⟩
  | .hbm, ⟨79, _⟩ => ⟨S200000x128, .f32⟩
  | .hbm, ⟨80, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S200000 : S_.BroadcastsInDim S200000 (![] : Fin 0 → Fin S200000.rank)
  bcast_S2000000_S2000000x1_0 : S2000000.BroadcastsInDim S2000000x1 (![0] : Fin 1 → Fin S2000000x1.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  dot_S200000x128_S128x128_S200000x128_1_0_0_1_n_n_wf : DotDims.WF S200000x128 S128x128 S200000x128 [1] [0] [0] [1] [] []
  scatter_S200000_S2000000x1_S2000000_n_0_0_1_wf : ScatterDims.WF S200000 S2000000x1 S2000000 [] [0] [0] 1
  scatter_S50000_S2000000x1_S2000000_n_0_0_1_wf : ScatterDims.WF S50000 S2000000x1 S2000000 [] [0] [0] 1
  gather_S200000x128_S2000000x1_S2000000x128_1_0_n_n_0_1_1128_wf : GatherDims.WF S200000x128 S2000000x1 S2000000x128 [1] [0] [] [0] [] 1 ![1, 128]
  scatter_S50000x128_S2000000x1_S2000000x128_1_0_0_1_wf : ScatterDims.WF S50000x128 S2000000x1 S2000000x128 [1] [0] [0] 1
  gather_S50000x128_S2000000x1_S2000000x128_1_0_n_n_0_1_1128_wf : GatherDims.WF S50000x128 S2000000x1 S2000000x128 [1] [0] [] [0] [] 1 ![1, 128]
  scatter_S200000x128_S2000000x1_S2000000x128_1_0_0_1_wf : ScatterDims.WF S200000x128 S2000000x1 S2000000x128 [1] [0] [0] 1

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S50000x128_S2000000x1_S2000000x128_1_0_0_1 : ScatterDims S50000x128 S2000000x1 S2000000x128 where
  updateWindowDims := [1]
  insertedWindowDims := [0]
  scatterDimsToOperandDims := [0]
  indexVectorDim := 1
  wf := scatter_S50000x128_S2000000x1_S2000000x128_1_0_0_1_wf
def gather_S50000x128_S2000000x1_S2000000x128_1_0_n_n_0_1_1128 : GatherDims S50000x128 S2000000x1 S2000000x128 where
  offsetDims := [1]
  collapsedSliceDims := [0]
  operandBatchingDims := []
  startIndicesBatchingDims := []
  startIndexMap := [0]
  indexVectorDim := 1
  sliceSizes := ![1, 128]
  wf := gather_S50000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf

class Facts : Prop extends Facts₀ where

variable [Facts]
-- ==== Proof.KernelRun.lean ====
/-
  The idealized kernel program's run with its RESULT named.

  @main of the kernel program is five stretches of host operations, the first kernel launch (the scaled aggregate
  times the weights, ten blocks of 5000 hyperedge rows), one more stretch of host operations, and the second
  launch (the degree scaling, bias and leaky rectifier, fifty blocks of 4000 node rows).  The frame module reads the
  memory at every boundary of that chain as a fold `W0 … W8` from the launch memory.  Here the same run is stated
  with one more conjunct in its post: the result array ends holding the last boundary's contents `W8` at the
  result's buffer; the argument arrays end as launched.
-/
import proofs.«157976_j2559800508842_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the argument arrays as launched. -/
theorem run_main : θ_run defs (onTc (τ := τ) (main (F := F))) ⟨m, fun _ => 0, ρ⟩ (fun r => ∀ c : Dev nD,
      r.2.mem ((c.tc : Thread nD τ).loc main_v46) = W8 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.RunValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KernelBlocks.lean ====
/-
  The two kernel bodies read at an entry, over the extended reals.

  The first body multiplies each of the block's 5000 aggregated rows by that row's reciprocal hyperedge degree (a
  [5000, 1] column spread over the 128 features), rounds both operands to bf16 (the identity on extended reals) and
  multiplies by the [128, 128] weights on the matrix unit into a zero accumulator: at (p, q) the sum over k of
  (agg[p,k] · binv[p,0]) · W[k,q].

  The second body multiplies each of the block's 4000 rows by that row's reciprocal node degree, adds the bias row,
  and applies the leaky rectifier: with t = raw[p,q] · dinv[p,0] + b[q], the entry is t where t ≥ 0 and slope · t
  elsewhere.
-/
import proofs.«157976_j2559800508842_2_alg».proof.Proof.Gen.KernelIdeal.Frame
import proofs.«157976_j2559800508842_2_alg».proof.Proof.LibMatmulNN
import proofs.«157976_j2559800508842_2_alg».proof.Proof.LibKeepdimsColumn
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Blocks

open Cert.KernelIdeal Cert.KernelIdeal.Gen
open Idealize.ShloMosaic Idealize.ShloMosaic.TcCoe Idealize.ShloMosaic.ValueIdx

/-- The first body at (p, q): the scaled aggregated row p times column q of the weights. -/
theorem k0_apply (x0 : Vec Ideal S5000x128 .f32) (x1 : Vec Ideal S5000x1 .f32) (x2 : Vec Ideal S128x128 .f32)
    (p : Fin 5000) (q : Fin 128) :
    k0_pay1 (F := Ideal) x0 x1 x2 (ix2 p q)
      = ∑ k : Fin 128, (x0 (ix2 p k) * x1 (ix2 p (0 : Fin 1))) * x2 (ix2 k q) := by
  unfold k0_pay1
  refine (Cert.MatmulNN.matmul_zero_apply dot_S5000x128_S128x128_S5000x128_1_0_0_1_n_n rfl none _ _ p q).trans ?_
  refine Finset.sum_congr rfl fun k _ => ?_
  show (shapeCast S5000x128 x0 shapeCasts_S5000x128_S5000x128 (ix2 p k)
      * broadcastTo S5000x128 (shapeCast S5000x1 x1 shapeCasts_S5000x1_S5000x1) broadcasts_S5000x1_S5000x128 (ix2 p k))
      * x2 (ix2 k q) = _
  rw [shapeCast_self, Cert.KeepdimsColumn.broadcastTo_a1_ab_apply, shapeCast_self]

/-- The second body's affine part at (p, q): row p scaled by its column entry, plus the bias at q (the bias vector is
    cast to a [1, 128] row and spread over the rows). -/
theorem affine_apply (x0 : Vec Ideal S4000x128 .f32) (x1 : Vec Ideal S4000x1 .f32) (x2 : Vec Ideal S128 .f32)
    (p : Fin 4000) (q : Fin 128) :
    (addf (mulf (shapeCast S4000x128 x0 shapeCasts_S4000x128_S4000x128 : FVec Ideal S4000x128 .f32)
        (broadcastTo S4000x128 (shapeCast S4000x1 x1 shapeCasts_S4000x1_S4000x1) broadcasts_S4000x1_S4000x128))
      (broadcastTo S4000x128 (shapeCast S1x128 x2 shapeCasts_S128_S1x128) broadcasts_S1x128_S4000x128)
        : FVec Ideal S4000x128 .f32) (ix2 p q)
      = x0 (ix2 p q) * x1 (ix2 p (0 : Fin 1)) + x2 (ix1 q) := by
  show shapeCast S4000x128 x0 shapeCasts_S4000x128_S4000x128 (ix2 p q)
      * broadcastTo S4000x128 (shapeCast S4000x1 x1 shapeCasts_S4000x1_S4000x1) broadcasts_S4000x1_S4000x128 (ix2 p q)
      + broadcastTo S4000x128 (shapeCast S1x128 x2 shapeCasts_S128_S1x128) broadcasts_S1x128_S4000x128 (ix2 p q) = _
  rw [shapeCast_self, Cert.KeepdimsColumn.broadcastTo_a1_ab_apply, shapeCast_self]
  congr 1
  refine (broadcastTo_apply _ broadcasts_S1x128_S4000x128 (ix2 p q) (ix2 (0 : Fin 1) q) (fun a => ?_)).trans ?_
  · match a with
    | ⟨0, _⟩ => rfl
    | ⟨1, _⟩ => rfl
  · exact (shapeCast_addUnit_apply ![128] x2 shapeCasts_S128_S1x128 (ix2 (0 : Fin 1) q)).trans
      (congrArg x2 (funext fun a => by match a with | ⟨0, _⟩ => rfl))

/-- The second body at (p, q): the affine part where it is at least zero, the slope times it elsewhere. -/
theorem k1_apply (x0 : Vec Ideal S4000x128 .f32) (x1 : Vec Ideal S4000x1 .f32) (x2 : Vec Ideal S128 .f32)
    (p : Fin 4000) (q : Fin 128) :
    k1_pay1 (F := Ideal) x0 x1 x2 (ix2 p q)
      = Scalar.select (FloatOps.cmpf .oge (x0 (ix2 p q) * x1 (ix2 p (0 : Fin 1)) + x2 (ix1 q)) (Ideal.ofBits .f32 0x00000000#32))
          (x0 (ix2 p q) * x1 (ix2 p (0 : Fin 1)) + x2 (ix1 q))
          (Ideal.ofBits .f32 0x3C23D70A#32 * (x0 (ix2 p q) * x1 (ix2 p (0 : Fin 1)) + x2 (ix1 q))) := by
  unfold k1_pay1
  rw [select_apply, cmpf_apply, mulf_apply, broadcast_apply, broadcast_apply, affine_apply]
  rfl

end Cert.KernelIdeal.Blocks

end
-- ==== Proof.KernelArrays.lean ====
/-
  From blocks to arrays: what each kernel launch leaves in its output array, as ONE function of the arrays it found.

  The first launch walks ten blocks of 5000 hyperedge rows; block t reads rows 5000·t … 5000·t+4999 of the aggregated
  features and of the reciprocal-degree column, and all of the weights, and writes the same rows of the messages.  So
  the message array ends holding, at (g, c), the sum over k of (agg[g,k] · binv[g,0]) · W[k,c] (`messages`).
  The second launch walks fifty blocks of 4000 node rows in the same way and leaves, at (v, c), the leaky rectifier
  of raw[v,c] · dinv[v,0] + b[c] (`outputs`).  Each output's blocks tile its array, so the whole array is that
  function.
-/
import proofs.«157976_j2559800508842_2_alg».proof.Proof.Gen.KernelIdeal.Frame
import proofs.«157976_j2559800508842_2_alg».proof.Proof.KernelBlocks

set_option maxRecDepth 16384

noncomputable section

namespace Cert.KernelIdeal.Arrays

open Cert.KernelIdeal Cert.KernelIdeal.Gen Cert.KernelIdeal.Blocks
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-! ## The first launch -/

/-- The hyperedge messages as one array: row g is the aggregated row g scaled by its reciprocal degree, times W. -/
def messages (agg : S50000x128.Idx → EReal) (binv : S50000x1.Idx → EReal) (W : S128x128.Idx → EReal) :
    S50000x128.Idx → EReal :=
  fun i => ∑ k : Fin 128, (agg (ix2 (⟨(i 0).val, (i 0).isLt⟩ : Fin 50000) k)
      * binv (ix2 (⟨(i 0).val, (i 0).isLt⟩ : Fin 50000) (0 : Fin 1))) * W (ix2 k (⟨(i 1).val, (i 1).isLt⟩ : Fin 128))

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed0_eq (c : Dev nD) (t : Fin cfg0.N) :
    (dat0 V c).flushed 3 t = ((cfg0.win 3).blk t).view.read (Elt Ideal)
      (messages (V c main_v34) (V c main_v24) (V c main_arg2)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S5000x1) hz2, View.ld_unit_zero (S := S128x128) hz2]
  obtain ⟨e0, e1, e2, e3, e4, e5, e6, e7⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = messages (V c main_v34) (V c main_v24) (V c main_arg2) (((cfg0.win 3).blk t).view.emb (ix2 p q))
  refine (k0_apply (iblk0 V c 0 t) (iblk0 V c 1 t) (iblk0 V c 2 t) p q).trans ?_
  unfold messages
  refine Finset.sum_congr rfl fun k _ => ?_
  have h0 : iblk0 V c 0 t (ix2 p k) = V c main_v34 (ix2 (⟨((((cfg0.win 3).blk t).view.emb (ix2 p q)) 0).val,
      ((((cfg0.win 3).blk t).view.emb (ix2 p q)) 0).isLt⟩ : Fin 50000) k) := by
    show V c main_v34 (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : iblk0 V c 1 t (ix2 p (0 : Fin 1)) = V c main_v24 (ix2 (⟨((((cfg0.win 3).blk t).view.emb (ix2 p q)) 0).val,
      ((((cfg0.win 3).blk t).view.emb (ix2 p q)) 0).isLt⟩ : Fin 50000) (0 : Fin 1)) := by
    show V c main_v24 (((cfg0.win 1).blk t).view.emb (ix2 p (0 : Fin 1))) = _
    refine congrArg _ (funext fun a => Fin.ext ?_)
    match a with
    | ⟨0, _⟩ => show win0_1.index t (0 : Fin 2) * 5000 + 1 * p.val = win0_3.index t (0 : Fin 2) * 5000 + 1 * p.val; omega
    | ⟨1, _⟩ => show win0_1.index t (1 : Fin 2) * 1 + 1 * 0 = 0; omega
  have h2 : iblk0 V c 2 t (ix2 k q) = V c main_arg2 (ix2 k (⟨((((cfg0.win 3).blk t).view.emb (ix2 p q)) 1).val,
      ((((cfg0.win 3).blk t).view.emb (ix2 p q)) 1).isLt⟩ : Fin 128)) := by
    show V c main_arg2 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_3.index t (1 : Fin 2) * 128 + 1 * q.val; omega
  rw [h0, h1, h2]

theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < grid0.N := by rw [N_0]; omega
  obtain ⟨-, -, -, -, -, -, e6, e7⟩ := idx_facts0 ⟨(i 0).val / 5000, hlt⟩
  refine ⟨⟨(i 0).val / 5000, hlt⟩, flush0_3 _, ?_⟩
  show i ∈ ((View.whole main_v35).slice (win0_3.rect ⟨(i 0).val / 5000, hlt⟩)).set
  rw [View.set_slice_whole, Rect.mem_set_unit]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e7]; omega

/-- After the first launch the message array holds `messages` of the arrays the launch found. -/
theorem final0 (c : Dev nD) :
    (dat0 V c).arrAt 3 cfg0.N = messages (V c main_v34) (V c main_v24) (V c main_arg2) :=
  (dat0 V c).arrAt_eq_of_cover 3 (messages (V c main_v34) (V c main_v24) (V c main_arg2))
    (fun t _ => flushed0_eq V c t) (cover0)

/-! ## The second launch -/

/-- Row v of the raw sums scaled by its reciprocal degree, plus the bias. -/
def affine (raw : S200000x128.Idx → EReal) (dinv : S200000x1.Idx → EReal) (b : S128.Idx → EReal) :
    S200000x128.Idx → EReal :=
  fun i => raw (ix2 (⟨(i 0).val, (i 0).isLt⟩ : Fin 200000) (⟨(i 1).val, (i 1).isLt⟩ : Fin 128))
      * dinv (ix2 (⟨(i 0).val, (i 0).isLt⟩ : Fin 200000) (0 : Fin 1)) + b (ix1 (⟨(i 1).val, (i 1).isLt⟩ : Fin 128))

/-- The result as one array: the leaky rectifier of `affine`. -/
def outputs (raw : S200000x128.Idx → EReal) (dinv : S200000x1.Idx → EReal) (b : S128.Idx → EReal) :
    S200000x128.Idx → EReal :=
  fun i => Scalar.select (FloatOps.cmpf (F := Ideal) (φ := .f32) .oge (affine raw dinv b i) (Ideal.ofBits .f32 0x00000000#32))
    (affine raw dinv b i) (Ideal.ofBits .f32 0x3C23D70A#32 * affine raw dinv b i)

theorem hz1 : (![0] : Fin 1 → Nat) = fun _ => 0 := funext fun a => by fin_cases a; rfl

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem flushed1_eq (c : Dev nD) (t : Fin cfg1.N) :
    (dat1 V c).flushed 3 t = ((cfg1.win 3).blk t).view.read (Elt Ideal)
      (outputs (V c main_v45) (V c main_v17) (V c main_arg3)) := by
  show (cfg1.win 3).cut (grid1.coords t) ((dat1 V c).after 3 t) = _
  rw [after1_3]
  unfold out1_3
  rw [View.canon_unit_zero hz2]
  simp only [View.ld_unit_zero (S := S4000x128) hz2, View.ld_unit_zero (S := S4000x1) hz2, View.ld_unit_zero (S := S128) hz1]
  obtain ⟨e0, e1, e2, e3, e4, e6, e7⟩ := idx_facts1 t
  funext j
  obtain ⟨p, q, rfl⟩ : ∃ (p : Fin 4000) (q : Fin 128), j = ix2 p q := ⟨j 0, j 1, eq_ix2 j⟩
  show k1_pay1 (iblk1 V c 0 t) (iblk1 V c 1 t) (iblk1 V c 2 t) (ix2 p q)
    = outputs (V c main_v45) (V c main_v17) (V c main_arg3) (((cfg1.win 3).blk t).view.emb (ix2 p q))
  refine (k1_apply (iblk1 V c 0 t) (iblk1 V c 1 t) (iblk1 V c 2 t) p q).trans ?_
  have h0 : iblk1 V c 0 t (ix2 p q) = V c main_v45 (ix2 (⟨((((cfg1.win 3).blk t).view.emb (ix2 p q)) 0).val,
      ((((cfg1.win 3).blk t).view.emb (ix2 p q)) 0).isLt⟩ : Fin 200000) (⟨((((cfg1.win 3).blk t).view.emb (ix2 p q)) 1).val,
      ((((cfg1.win 3).blk t).view.emb (ix2 p q)) 1).isLt⟩ : Fin 128)) := by
    show V c main_v45 (((cfg1.win 0).blk t).view.emb (ix2 p q)) = _
    refine congrArg _ (funext fun a => Fin.ext ?_)
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * q.val = win1_3.index t (1 : Fin 2) * 128 + 1 * q.val; omega
  have h1 : iblk1 V c 1 t (ix2 p (0 : Fin 1)) = V c main_v17 (ix2 (⟨((((cfg1.win 3).blk t).view.emb (ix2 p q)) 0).val,
      ((((cfg1.win 3).blk t).view.emb (ix2 p q)) 0).isLt⟩ : Fin 200000) (0 : Fin 1)) := by
    show V c main_v17 (((cfg1.win 1).blk t).view.emb (ix2 p (0 : Fin 1))) = _
    refine congrArg _ (funext fun a => Fin.ext ?_)
    match a with
    | ⟨0, _⟩ => show win1_1.index t (0 : Fin 2) * 4000 + 1 * p.val = win1_3.index t (0 : Fin 2) * 4000 + 1 * p.val; omega
    | ⟨1, _⟩ => show win1_1.index t (1 : Fin 2) * 1 + 1 * 0 = 0; omega
  have h2 : iblk1 V c 2 t (ix1 q) = V c main_arg3 (ix1 (⟨((((cfg1.win 3).blk t).view.emb (ix2 p q)) 1).val,
      ((((cfg1.win 3).blk t).view.emb (ix2 p q)) 1).isLt⟩ : Fin 128)) := by
    show V c main_arg3 (((cfg1.win 2).blk t).view.emb (ix1 q)) = _
    refine congrArg _ (funext fun a => Fin.ext ?_)
    match a with
    | ⟨0, _⟩ => show win1_2.index t (0 : Fin 1) * 128 + 1 * q.val = win1_3.index t (1 : Fin 2) * 128 + 1 * q.val; omega
  rw [h0, h1, h2]
  rfl

theorem cover1 (i : S200000x128.Idx) :
    ∃ t : Fin cfg1.N, (cfg1.win 3).flush t = true ∧ i ∈ ((cfg1.win 3).blk t).view.set := by
  have hi0 : (i 0).val < 200000 := (i 0).isLt
  have hi1 : (i 1).val < 128 := (i 1).isLt
  have hlt : (i 0).val / 4000 < grid1.N := by rw [N_1]; omega
  obtain ⟨-, -, -, -, -, e6, e7⟩ := idx_facts1 ⟨(i 0).val / 4000, hlt⟩
  refine ⟨⟨(i 0).val / 4000, hlt⟩, flush1_3 _, ?_⟩
  show i ∈ ((View.whole main_v46).slice (win1_3.rect ⟨(i 0).val / 4000, hlt⟩)).set
  rw [View.set_slice_whole, Rect.mem_set_unit]
  intro a
  match a with
  | ⟨0, _⟩ =>
    show win1_3.index ⟨(i 0).val / 4000, hlt⟩ (0 : Fin 2) * 4000 ≤ (i 0).val
      ∧ (i 0).val < win1_3.index ⟨(i 0).val / 4000, hlt⟩ (0 : Fin 2) * 4000 + 4000
    rw [e6]; show (i 0).val / 4000 * 4000 ≤ (i 0).val ∧ (i 0).val < (i 0).val / 4000 * 4000 + 4000; omega
  | ⟨1, _⟩ =>
    show win1_3.index ⟨(i 0).val / 4000, hlt⟩ (1 : Fin 2) * 128 ≤ (i 1).val
      ∧ (i 1).val < win1_3.index ⟨(i 0).val / 4000, hlt⟩ (1 : Fin 2) * 128 + 128
    rw [e7]; omega

/-- After the second launch the result array holds `outputs` of the arrays the launch found. -/
theorem final1 (c : Dev nD) :
    (dat1 V c).arrAt 3 cfg1.N = outputs (V c main_v45) (V c main_v17) (V c main_arg3) :=
  (dat1 V c).arrAt_eq_of_cover 3 (outputs (V c main_v45) (V c main_v17) (V c main_arg3))
    (fun t _ => flushed1_eq V c t) (cover1)

end Cert.KernelIdeal.Arrays

end
-- ==== Proof.LibScatterRows.lean ====
/-
  SCATTER-ADD OF ROWS, READ AT AN ENTRY, AT THE IDEAL INSTANCE.

  A StableHLO scatter with an `add` body that adds whole rows `upd : [T, C]` into a matrix `x : [N, C]` at a
  column of scatter indices `idx : [T, 1]` (update window axis 1, inserted window axis 0, scatter axis to
  operand axis `[0]`, index vector on axis 1) has at entry `(v, c)`, over the extended reals, the value
  `x[v, c] + ∑ upd[e, c]` over the edges `e` whose scatter index `idx[e, 0]`, read as a signed integer and
  NOT clamped, is the row `v` (`scatterAdd_rows_apply`): an index outside `[0, N - 1]` lands nowhere.  The
  same scatter of a vector `upd : [T]` into `x : [N]` (no window axis) has at entry `v` the value
  `x[v] + ∑ upd[e]` over the same edges (`scatterAdd_vec_apply`).

  The route: an update entry lands on an operand entry exactly when on every axis its start plus its window
  coordinate is that entry's coordinate (`resultIdx?_eq_some_iff`); on these dimension numbers that says
  "the scatter index is the row, and the column is the same" (`rowsDims_lands_iff`), so the set of update
  entries landing on `(v, c)` is the image of the landing edges under `e ↦ (e, c)`.

  Each theorem is proved first for the record written out with these fields (`rowsDims`, `vecDims`) and
  then stated for ANY record of dimension numbers with these fields.
-/
import Idealize.ShloMosaic.Lib.ValueIdx
import Idealize.ShloMosaic.PureOps.Ideal

noncomputable section

open scoped BigOperators

namespace Cert.ScatterRows

open Idealize.ShloMosaic Idealize.ShloMosaic.ValueIdx

/-- the edges whose scatter index, read signed and NOT clamped, is the row v -/
def landing {T w : ℕ} (idx : IVec ⟨2, ![T, 1]⟩ w) (v : ℕ) : Finset (Fin T) :=
  Finset.univ.filter fun e => (idx (ix2 e (0 : Fin 1))).toInt = (v : ℤ)

/-! ## Where an update entry lands, for any dimension numbers -/

/-- An update entry `j` lands on the operand entry `i` exactly when, on every operand axis, its start plus its
    window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro hs a
    split at hs
    · rename_i h
      have h' := congrArg (fun f => ((f a).val : ℕ)) (Option.some.inj hs)
      simp only at h'
      have := (h a).1
      omega
    · exact absurd hs (by simp)
  · intro hi
    have h : ∀ a, 0 ≤ d.start j idx a + (d.window j a : ℤ) ∧ d.start j idx a + (d.window j a : ℤ) < s.size a := by
      intro a
      have h1 := hi a
      have h2 := (i a).isLt
      constructor <;> omega
    rw [dif_pos h]
    congr 1
    funext a
    refine Fin.ext ?_
    have h1 := hi a
    show (d.start j idx a + (d.window j a : ℤ)).toNat = (i a).val
    omega

/-! ## Rows of a matrix -/

/-- The dimension numbers of a scatter of rows: operand `[N, C]`, scatter indices `[T, 1]`, updates `[T, C]`. -/
abbrev rowsDims (N C T : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

section Rows
variable {N C T w : ℕ} (wf : ScatterDims.WF ⟨2, ![N, C]⟩ ⟨2, ![T, 1]⟩ ⟨2, ![T, C]⟩ [1] [0] [0] 1)

/-- The scatter-indices entry update entry `(e, c')` reads: `(e, 0)`. -/
theorem rowsDims_siIdx (e : Fin T) (c' : Fin C) :
    (rowsDims N C T wf).siIdx (ix2 e c') ⟨List.idxOf (0 : Fin 2) (rowsDims N C T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the row axis the start is the scatter index read signed … -/
theorem rowsDims_start0 (idx : IVec ⟨2, ![T, 1]⟩ w) (e : Fin T) (c' : Fin C) :
    (rowsDims N C T wf).start (ix2 e c') idx 0 = (idx (ix2 e (0 : Fin 1))).toInt := by
  unfold ScatterDims.start
  rw [dif_pos (show (0 : Fin 2) ∈ (rowsDims N C T wf).scatterDimsToOperandDims from List.mem_singleton.mpr rfl)]
  rw [rowsDims_siIdx wf e c']

/-- … and on the column axis it is `0`. -/
theorem rowsDims_start1 (idx : IVec ⟨2, ![T, 1]⟩ w) (e : Fin T) (c' : Fin C) :
    (rowsDims N C T wf).start (ix2 e c') idx 1 = 0 := by
  unfold ScatterDims.start
  rw [dif_neg (show (1 : Fin 2) ∉ (rowsDims N C T wf).scatterDimsToOperandDims from
    fun h => Nat.one_ne_zero (congrArg Fin.val (List.mem_singleton.mp h)))]

/-- The window coordinate is `0` on the row axis (an inserted axis) … -/
theorem rowsDims_window0 (e : Fin T) (c' : Fin C) : (rowsDims N C T wf).window (ix2 e c') 0 = 0 := rfl

/-- … and the update's column on the column axis. -/
theorem rowsDims_window1 (e : Fin T) (c' : Fin C) : (rowsDims N C T wf).window (ix2 e c') 1 = c'.val := rfl

/-- Update entry `(e, c')` lands on operand entry `(v, c)` exactly when the scatter index of `e`, read signed, is
    `v` and the columns agree. -/
theorem rowsDims_lands_iff (idx : IVec ⟨2, ![T, 1]⟩ w) (e : Fin T) (c' : Fin C) (v : Fin N) (c : Fin C) :
    (rowsDims N C T wf).resultIdx? (ix2 e c') idx = some (ix2 v c)
      ↔ (idx (ix2 e (0 : Fin 1))).toInt = (v.val : ℤ) ∧ c' = c := by
  rw [resultIdx?_eq_some_iff]
  constructor
  · intro h
    have h0 := h 0
    have h1 := h 1
    rw [rowsDims_start0, rowsDims_window0] at h0
    rw [rowsDims_start1, rowsDims_window1] at h1
    refine ⟨?_, Fin.ext ?_⟩
    · have : (((ix2 v c : (⟨2, ![N, C]⟩ : Shape).Idx) 0).val : ℤ) = (v.val : ℤ) := rfl
      omega
    · have : (((ix2 v c : (⟨2, ![N, C]⟩ : Shape).Idx) 1).val : ℤ) = (c.val : ℤ) := rfl
      omega
  · rintro ⟨h0, rfl⟩ a
    match a with
    | ⟨0, _⟩ =>
      show (rowsDims N C T wf).start (ix2 e c') idx 0 + ((rowsDims N C T wf).window (ix2 e c') 0 : ℤ) = (v.val : ℤ)
      rw [rowsDims_start0, rowsDims_window0, h0]; simp
    | ⟨1, _⟩ =>
      show (rowsDims N C T wf).start (ix2 e c') idx 1 + ((rowsDims N C T wf).window (ix2 e c') 1 : ℤ) = (c'.val : ℤ)
      rw [rowsDims_start1, rowsDims_window1]; simp

/-- The update entries landing on `(v, c)` are the entries `(e, c)` of the landing edges `e`. -/
theorem rowsDims_filter_eq (idx : IVec ⟨2, ![T, 1]⟩ w) (v : Fin N) (c : Fin C) :
    (Finset.univ.filter fun j => (rowsDims N C T wf).resultIdx? j idx = some (ix2 v c))
      = (landing idx v.val).map ⟨fun e => (ix2 e c : (⟨2, ![T, C]⟩ : Shape).Idx),
          fun e e' h => congrFun h 0⟩ := by
  ext j
  obtain ⟨e, c', rfl⟩ : ∃ e c', j = ix2 e c' := ⟨j 0, j 1, eq_ix2 j⟩
  simp only [Finset.mem_filter, Finset.mem_univ, true_and, Finset.mem_map, Function.Embedding.coeFn_mk, landing]
  rw [rowsDims_lands_iff]
  constructor
  · rintro ⟨h, rfl⟩
    exact ⟨e, h, rfl⟩
  · rintro ⟨e', h, he⟩
    have h0 : e' = e := congrFun he 0
    have h1 : c = c' := congrFun he 1
    subst h0 h1
    exact ⟨h, rfl⟩

/-- The scatter-add of rows at the written-out record, read at an entry. -/
theorem scatterAdd_rowsDims_apply {φ : FTy} (x : FVec Ideal ⟨2, ![N, C]⟩ φ) (idx : IVec ⟨2, ![T, 1]⟩ w)
    (upd : FVec Ideal ⟨2, ![T, C]⟩ φ) (v : Fin N) (c : Fin C) :
    Host.scatterAdd (rowsDims N C T wf) x idx upd (ix2 v c) = x (ix2 v c) + ∑ e ∈ landing idx v.val, upd (ix2 e c) := by
  show Ideal.hostScatterAdd (rowsDims N C T wf) x idx upd (ix2 v c) = _
  unfold Ideal.hostScatterAdd
  rw [rowsDims_filter_eq wf idx v c, Finset.sum_map]
  rfl

end Rows

/-- THE SCATTER-ADD OF ROWS READ AT `(v, c)`: the operand's entry plus the updates' column-`c` entries over the edges
    landing on row `v`; for any record with these dimension numbers. -/
theorem scatterAdd_rows_apply {N C T w : ℕ} {φ : FTy} (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![T, 1]⟩ w) (upd : FVec Ideal ⟨2, ![T, C]⟩ φ)
    (v : Fin N) (c : Fin C) :
    Host.scatterAdd d x idx upd (ix2 v c) = x (ix2 v c) + ∑ e ∈ landing idx v.val, upd (ix2 e c) := by
  obtain ⟨uw, iw, sd, iv, wf⟩ := d
  simp only at h1 h2 h3 h4
  subst h1 h2 h3 h4
  exact scatterAdd_rowsDims_apply wf x idx upd v c

/-! ## Entries of a vector -/

/-- The dimension numbers of the same scatter of a vector: operand `[N]`, scatter indices `[T, 1]`, updates `[T]`. -/
abbrev vecDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section Vec
variable {N T w : ℕ} (wf : ScatterDims.WF ⟨1, ![N]⟩ ⟨2, ![T, 1]⟩ ⟨1, ![T]⟩ [] [0] [0] 1)

/-- The scatter-indices entry update entry `e` reads: `(e, 0)`. -/
theorem vecDims_siIdx (e : Fin T) :
    (vecDims N T wf).siIdx (ix1 e) ⟨List.idxOf (0 : Fin 1) (vecDims N T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the one operand axis the start is the scatter index read signed … -/
theorem vecDims_start0 (idx : IVec ⟨2, ![T, 1]⟩ w) (e : Fin T) :
    (vecDims N T wf).start (ix1 e) idx 0 = (idx (ix2 e (0 : Fin 1))).toInt := by
  unfold ScatterDims.start
  rw [dif_pos (show (0 : Fin 1) ∈ (vecDims N T wf).scatterDimsToOperandDims from List.mem_singleton.mpr rfl)]
  rw [vecDims_siIdx wf e]

/-- … and the window coordinate is `0` (an inserted axis). -/
theorem vecDims_window0 (e : Fin T) : (vecDims N T wf).window (ix1 e) 0 = 0 := rfl

/-- Update entry `e` lands on operand entry `v` exactly when its scatter index, read signed, is `v`. -/
theorem vecDims_lands_iff (idx : IVec ⟨2, ![T, 1]⟩ w) (e : Fin T) (v : Fin N) :
    (vecDims N T wf).resultIdx? (ix1 e) idx = some (ix1 v) ↔ (idx (ix2 e (0 : Fin 1))).toInt = (v.val : ℤ) := by
  rw [resultIdx?_eq_some_iff]
  constructor
  · intro h
    have h0 := h 0
    rw [vecDims_start0, vecDims_window0] at h0
    have : (((ix1 v : (⟨1, ![N]⟩ : Shape).Idx) 0).val : ℤ) = (v.val : ℤ) := rfl
    omega
  · intro h0 a
    obtain rfl : a = 0 := Subsingleton.elim _ _
    show (vecDims N T wf).start (ix1 e) idx 0 + ((vecDims N T wf).window (ix1 e) 0 : ℤ) = (v.val : ℤ)
    rw [vecDims_start0, vecDims_window0, h0]; simp

/-- The update entries landing on `v` are the landing edges. -/
theorem vecDims_filter_eq (idx : IVec ⟨2, ![T, 1]⟩ w) (v : Fin N) :
    (Finset.univ.filter fun j => (vecDims N T wf).resultIdx? j idx = some (ix1 v))
      = (landing idx v.val).map ⟨fun e => (ix1 e : (⟨1, ![T]⟩ : Shape).Idx), fun e e' h => congrFun h 0⟩ := by
  ext j
  obtain ⟨e, rfl⟩ : ∃ e, j = ix1 e := ⟨j 0, eq_ix1 j⟩
  simp only [Finset.mem_filter, Finset.mem_univ, true_and, Finset.mem_map, Function.Embedding.coeFn_mk, landing]
  rw [vecDims_lands_iff]
  constructor
  · intro h
    exact ⟨e, h, rfl⟩
  · rintro ⟨e', h, he⟩
    have h0 : e' = e := congrFun he 0
    subst h0
    exact h

/-- The scatter-add of a vector at the written-out record, read at an entry. -/
theorem scatterAdd_vecDims_apply {φ : FTy} (x : FVec Ideal ⟨1, ![N]⟩ φ) (idx : IVec ⟨2, ![T, 1]⟩ w)
    (upd : FVec Ideal ⟨1, ![T]⟩ φ) (v : Fin N) :
    Host.scatterAdd (vecDims N T wf) x idx upd (ix1 v) = x (ix1 v) + ∑ e ∈ landing idx v.val, upd (ix1 e) := by
  show Ideal.hostScatterAdd (vecDims N T wf) x idx upd (ix1 v) = _
  unfold Ideal.hostScatterAdd
  rw [vecDims_filter_eq wf idx v, Finset.sum_map]
  rfl

end Vec

/-- THE SCATTER-ADD OF A VECTOR READ AT `v`: the operand's entry plus the updates over the edges landing on `v`; for
    any record with these dimension numbers. -/
theorem scatterAdd_vec_apply {N T w : ℕ} {φ : FTy} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![T, 1]⟩ w) (upd : FVec Ideal ⟨1, ![T]⟩ φ) (v : Fin N) :
    Host.scatterAdd d x idx upd (ix1 v) = x (ix1 v) + ∑ e ∈ landing idx v.val, upd (ix1 e) := by
  obtain ⟨uw, iw, sd, iv, wf⟩ := d
  simp only at h1 h2 h3 h4
  subst h1 h2 h3 h4
  exact scatterAdd_vecDims_apply wf x idx upd v

end Cert.ScatterRows

end
-- ==== Proof.LibIntScatter.lean ====
/-
  AN INTEGER SCATTER-ADD OF A VECTOR, READ AT AN ENTRY, AND A DEGREE COUNT.

  A StableHLO scatter whose body adds two integers is printed as the left fold, over the update entries in row-major
  order, of "add the update to the entry its scatter index names, or drop it when the index is outside the operand".
  Integer addition is commutative and associative, so at an entry `g` the fold is the operand's entry plus the sum
  of the updates landing on `g` (`scatter_addi_apply`).  For a vector `upd : [T]` scattered into `x : [N]` at a column
  `idx : [T, 1]` of indices this is `x[v] + ∑ upd[e]` over the edges `e` whose index, read signed, is `v`
  (`scatter_addi_vec_apply`; the landing set is the one the float scatter-add uses).

  Scattering ones into zeros counts the landing edges: the 32-bit word of their number (`count_word`).  Below 2³¹
  that word read as a signed integer is the number itself, so its conversion to a float is, over the extended reals,
  the number (`sitofp_count`), and "the word is greater than zero (signed)" is "the number is positive"
  (`sgt_zero_count`), the same bit as the float comparison of the number against zero (`ogt_zero_count`).
-/
import Mathlib.Data.BitVec
import Idealize.ShloMosaic.Lib.ValueIdx
import Idealize.ShloMosaic.PureOps.Ideal
import proofs.«157976_j2559800508842_2_alg».proof.Proof.LibScatterRows

noncomputable section

open scoped BigOperators

namespace Cert.IntScatter

open Idealize.ShloMosaic Idealize.ShloMosaic.ValueIdx Cert.ScatterRows

/-- A left fold of "add update `n` to the entry it lands on" holds, at entry `g`, the start value plus the
    updates landing on `g`.  The step is any function that adds the update at the landing entry, leaves the other
    entries, and drops an update that lands nowhere. -/
theorem foldl_landing {α S ι : Type} [AddCommMonoid α] [DecidableEq S] (land : ι → Option S) (upd : ι → α)
    (step : (S → α) → ι → (S → α))
    (hs : ∀ r n i, land n = some i → ∀ i', step r n i' = if i' = i then r i + upd n else r i')
    (hn : ∀ r n, land n = none → step r n = r)
    (l : List ι) (x : S → α) (g : S) :
    (l.foldl step x) g = x g + ((l.filter fun n => land n = some g).map upd).sum := by
  induction l generalizing x with
  | nil => simp
  | cons n l ih =>
    rw [List.foldl_cons, ih]
    cases hn' : land n with
    | none => rw [hn _ _ hn']; simp [hn']
    | some i =>
      rw [hs _ _ _ hn' g]
      by_cases hg : g = i
      · subst hg; simp [hn', add_assoc]
      · have hne : ¬ (i = g) := fun h => hg h.symm
        simp [hn', hg, hne]

/-- The sum of a list of the positions `0 … n-1` kept by a predicate is the finite sum over the kept positions. -/
theorem sum_filter_finRange {α : Type} [AddCommMonoid α] (n : ℕ) (p : Fin n → Prop) [DecidablePred p]
    (f : Fin n → α) :
    (((List.finRange n).filter fun k => p k).map f).sum = ∑ k ∈ Finset.univ.filter p, f k := by
  rw [← List.sum_toFinset f ((List.nodup_finRange n).filter _)]
  congr 1
  ext k; simp [List.mem_filter]

/-- AN INTEGER SCATTER-ADD READ AT AN ENTRY: the operand's entry plus the updates whose result index is that entry. -/
theorem scatter_addi_apply {s si u : Shape} {w wi : ℕ} (d : ScatterDims s si u) (x : IVec s w) (idx : IVec si wi)
    (upd : IVec u w) (g : s.Idx) :
    Host.scatter d IntOp.addi x idx upd g
      = x g + ∑ j ∈ Finset.univ.filter (fun j => d.resultIdx? j idx = some g), upd j := by
  unfold Host.scatter IntOp.addi
  refine (foldl_landing (fun n => d.resultIdx? (u.rowMajor.symm n) idx) (fun n => upd (u.rowMajor.symm n)) _ ?_ ?_
    (List.finRange u.numel) x g).trans ?_
  · intro r n i h i'
    simp only [h]
  · intro r n h
    simp only [h]
  congr 1
  rw [sum_filter_finRange u.numel (fun k => d.resultIdx? (u.rowMajor.symm k) idx = some g)
    (fun n => upd (u.rowMajor.symm n))]
  exact Finset.sum_equiv u.rowMajor.symm (by intro k; simp) (by intro k _; rfl)

/-- THE INTEGER SCATTER-ADD OF A VECTOR READ AT `v`: the operand's entry plus the updates over the edges landing on `v`;
    for any record with these dimension numbers. -/
theorem scatter_addi_vec_apply {N T w wi : ℕ} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : IVec ⟨1, ![N]⟩ w) (idx : IVec ⟨2, ![T, 1]⟩ wi) (upd : IVec ⟨1, ![T]⟩ w) (v : Fin N) :
    Host.scatter d IntOp.addi x idx upd (ix1 v) = x (ix1 v) + ∑ e ∈ landing idx v.val, upd (ix1 e) := by
  obtain ⟨uw, iw, sd, iv, wf⟩ := d
  simp only at h1 h2 h3 h4
  subst h1 h2 h3 h4
  refine (scatter_addi_apply (vecDims N T wf) x idx upd (ix1 v)).trans ?_
  rw [vecDims_filter_eq wf idx v, Finset.sum_map]
  rfl

/-- Ones scattered into zeros: the word of the number of landing edges. -/
theorem count_word {N T wi : ℕ} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : IVec ⟨1, ![N]⟩ 32) (idx : IVec ⟨2, ![T, 1]⟩ wi) (upd : IVec ⟨1, ![T]⟩ 32)
    (hx : ∀ i, x i = 0#32) (hu : ∀ e, upd e = 1#32) (v : Fin N) :
    Host.scatter d IntOp.addi x idx upd (ix1 v) = BitVec.ofNat 32 (landing idx v.val).card := by
  rw [scatter_addi_vec_apply d h1 h2 h3 h4, hx, Finset.sum_congr rfl (fun e _ => hu (ix1 e)), Finset.sum_const]
  show 0#32 + (landing idx v.val).card • (1 : BitVec 32) = _
  rw [nsmul_one, BitVec.natCast_eq_ofNat]
  simp

/-- A number below 2³¹, as a 32-bit word read signed, is itself. -/
theorem toInt_ofNat_small (n : ℕ) (h : n < 2 ^ 31) : (BitVec.ofNat 32 n).toInt = (n : ℤ) := by
  rw [BitVec.toInt_eq_toNat_cond, BitVec.toNat_ofNat]
  have h32 : (2 : ℕ) ^ 32 = 4294967296 := by norm_num
  have h31 : (2 : ℕ) ^ 31 = 2147483648 := by norm_num
  have hm : n % 2 ^ 32 = n := Nat.mod_eq_of_lt (by omega)
  rw [hm]
  split <;> omega

/-- Its conversion to a float is, over the extended reals, the number. -/
theorem sitofp_count (n : ℕ) (h : n < 2 ^ 31) :
    (FloatOps.sitofp (F := Ideal) .f32 (BitVec.ofNat 32 n) : Ideal .f32) = ((n : ℝ) : EReal) := by
  show (((BitVec.ofNat 32 n).toInt : ℝ) : EReal) = _
  rw [toInt_ofNat_small n h]
  norm_cast

/-- The signed comparison of the word against zero, and the float comparison of the number against zero, are one bit. -/
theorem sgt_zero_count (n : ℕ) (h : n < 2 ^ 31) :
    IntOp.cmpi .sgt (BitVec.ofNat 32 n) 0#32 = Ideal.cmp .ogt ((n : ℝ) : EReal) 0 := by
  show BitVec.ofBool ((0#32).slt (BitVec.ofNat 32 n)) = BitVec.ofBool (decide ((0 : EReal) < ((n : ℝ) : EReal)))
  congr 1
  rw [BitVec.slt_eq_decide, toInt_ofNat_small n h]
  have : (0#32 : BitVec 32).toInt = 0 := by decide
  rw [this]
  have e : ((0 : EReal) < ((n : ℝ) : EReal)) ↔ ((0 : ℤ) < (n : ℤ)) := by
    rw [show (0 : EReal) = ((0 : ℝ) : EReal) from rfl, EReal.coe_lt_coe_iff]
    exact_mod_cast Iff.rfl
  exact (decide_eq_decide.mpr e).symm

end Cert.IntScatter

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.Degrees.lean ====
/-
  DEGREES AND THEIR RECIPROCALS, COUNTED TWO WAYS.

  The kernel program counts, per segment, the edges whose index is the segment with an INTEGER scatter-add of ones,
  converts the count to a float, and takes 1/count where the count is positive (signed comparison), 0 elsewhere.
  The reference counts with a FLOAT scatter-add of the float one, and takes 1/degree where the degree is positive
  (float comparison), 0 elsewhere.  Over the extended reals both counts are the NUMBER of landing edges — the integer
  count because that number is far below 2³¹, so the 32-bit word read signed is the number itself, and the float
  count because the exact sum of that many ones is the number — and the two comparisons are the same bit.  So the two
  reciprocal-degree vectors are equal, entry by entry (`recip_vec_eq`), and every entry is a real number
  (`recip_real`): 1/n for n > 0, and 0 for n = 0.
-/
import proofs.«157976_j2559800508842_2_alg».proof.Proof.LibIntScatter
import proofs.«157976_j2559800508842_2_alg».proof.Proof.LibRealEntries

noncomputable section

open scoped BigOperators

namespace Cert.Hypergraph

open Idealize.ShloMosaic Idealize.ShloMosaic.ValueIdx Cert.ScatterRows Cert.IntScatter Cert.RealEntries

/-- The float pattern of 1.0 denotes the real number 1. -/
theorem ofBits_one : Ideal.ofBits .f32 0x3F800000#32 = ((1 : ℝ) : EReal) := by
  simp [Ideal.ofBits, Ideal.ieee, -EReal.coe_mul]
  norm_num

/-- The number of edges landing on a segment is below 2³¹ when there are fewer edges than that. -/
theorem card_landing_lt {T wi : ℕ} (idx : IVec ⟨2, ![T, 1]⟩ wi) (v : ℕ) (hT : T < 2 ^ 31) :
    (landing idx v).card < 2 ^ 31 :=
  lt_of_le_of_lt ((Finset.card_le_univ _).trans (by simp)) hT

/-- The float count: the float one added once per landing edge, from zero, is the number of landing edges. -/
theorem float_count {N T wi : ℕ} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![T, 1]⟩ wi) (upd : FVec Ideal ⟨1, ![T]⟩ .f32)
    (hx : ∀ i, x i = Ideal.ofBits .f32 0x00000000#32) (hu : ∀ e, upd e = Ideal.ofBits .f32 0x3F800000#32) (v : Fin N) :
    Host.scatterAdd d x idx upd (ix1 v) = (((landing idx v.val).card : ℝ) : EReal) := by
  rw [scatterAdd_vec_apply d h1 h2 h3 h4, hx, Ideal.ofBits_zero_f32, zero_add,
    Finset.sum_congr rfl (fun e _ => (hu (ix1 e)).trans ofBits_one), ← coe_sum]
  simp

/-- THE TWO RECIPROCAL-DEGREE VECTORS ARE ONE. -/
theorem recip_vec_eq {N T wi : ℕ} (dI dF : ScatterDims ⟨1, ![N]⟩ ⟨2, ![T, 1]⟩ ⟨1, ![T]⟩)
    (i1 : dI.updateWindowDims = []) (i2 : dI.insertedWindowDims = [0]) (i3 : dI.scatterDimsToOperandDims = [0])
    (i4 : dI.indexVectorDim = 1)
    (f1 : dF.updateWindowDims = []) (f2 : dF.insertedWindowDims = [0]) (f3 : dF.scatterDimsToOperandDims = [0])
    (f4 : dF.indexVectorDim = 1) (hT : T < 2 ^ 31)
    (idx : IVec ⟨2, ![T, 1]⟩ wi)
    (zi zc : IVec ⟨1, ![N]⟩ 32) (oi : IVec ⟨1, ![T]⟩ 32)
    (zf zcf ones zsel : FVec Ideal ⟨1, ![N]⟩ .f32) (onesT : FVec Ideal ⟨1, ![T]⟩ .f32)
    (hzi : ∀ i, zi i = 0#32) (hzc : ∀ i, zc i = 0#32) (hoi : ∀ e, oi e = 1#32)
    (hzf : ∀ i, zf i = Ideal.ofBits .f32 0x00000000#32) (hzcf : ∀ i, zcf i = Ideal.ofBits .f32 0x00000000#32)
    (honesT : ∀ e, onesT e = Ideal.ofBits .f32 0x3F800000#32) :
    select (cmpi .sgt (Host.scatter dI IntOp.addi zi idx oi) zc)
        (Host.divf ones (sitofp (F := Ideal) .f32 (Host.scatter dI IntOp.addi zi idx oi))) zsel
      = select (cmpf .ogt (Host.scatterAdd dF zf idx onesT) zcf) (Host.divf ones (Host.scatterAdd dF zf idx onesT)) zsel := by
  funext i
  obtain ⟨v, rfl⟩ : ∃ v : Fin N, i = ix1 v := ⟨i 0, eq_ix1 i⟩
  show Scalar.select (IntOp.cmpi .sgt (Host.scatter dI IntOp.addi zi idx oi (ix1 v)) (zc (ix1 v)))
      (FloatOps.hostDivf (ones (ix1 v)) (FloatOps.sitofp (F := Ideal) .f32 (Host.scatter dI IntOp.addi zi idx oi (ix1 v))))
      (zsel (ix1 v))
    = Scalar.select (Ideal.cmp .ogt (Host.scatterAdd dF zf idx onesT (ix1 v)) (zcf (ix1 v)))
      (FloatOps.hostDivf (ones (ix1 v)) (Host.scatterAdd dF zf idx onesT (ix1 v))) (zsel (ix1 v))
  have hn := card_landing_lt idx v.val hT
  rw [count_word dI i1 i2 i3 i4 zi idx oi hzi hoi v, float_count dF f1 f2 f3 f4 zf idx onesT hzf honesT v,
    hzc, hzcf, Ideal.ofBits_zero_f32, sitofp_count _ hn, sgt_zero_count _ hn]

/-- Every reciprocal degree is a real number. -/
theorem recip_real {N T wi : ℕ} (dF : ScatterDims ⟨1, ![N]⟩ ⟨2, ![T, 1]⟩ ⟨1, ![T]⟩)
    (f1 : dF.updateWindowDims = []) (f2 : dF.insertedWindowDims = [0]) (f3 : dF.scatterDimsToOperandDims = [0])
    (f4 : dF.indexVectorDim = 1)
    (idx : IVec ⟨2, ![T, 1]⟩ wi)
    (zf zcf ones zsel : FVec Ideal ⟨1, ![N]⟩ .f32) (onesT : FVec Ideal ⟨1, ![T]⟩ .f32)
    (hzf : ∀ i, zf i = Ideal.ofBits .f32 0x00000000#32) (hzcf : ∀ i, zcf i = Ideal.ofBits .f32 0x00000000#32)
    (hones : ∀ i, ones i = Ideal.ofBits .f32 0x3F800000#32) (hzsel : ∀ i, zsel i = Ideal.ofBits .f32 0x00000000#32)
    (honesT : ∀ e, onesT e = Ideal.ofBits .f32 0x3F800000#32) (i : (⟨1, ![N]⟩ : Shape).Idx) :
    IsR (select (cmpf .ogt (Host.scatterAdd dF zf idx onesT) zcf) (Host.divf ones (Host.scatterAdd dF zf idx onesT)) zsel i) := by
  obtain ⟨v, rfl⟩ : ∃ v : Fin N, i = ix1 v := ⟨i 0, eq_ix1 i⟩
  show IsR (Scalar.select (Ideal.cmp .ogt (Host.scatterAdd dF zf idx onesT (ix1 v)) (zcf (ix1 v)))
      (Ideal.div (ones (ix1 v)) (Host.scatterAdd dF zf idx onesT (ix1 v))) (zsel (ix1 v)))
  rw [float_count dF f1 f2 f3 f4 zf idx onesT hzf honesT v, hzcf, hones, hzsel, Ideal.ofBits_zero_f32, ofBits_one]
  unfold Scalar.select
  split
  · rename_i hc
    have hpos : (landing idx v.val).card ≠ 0 := by
      intro h0
      rw [h0] at hc
      simp [Ideal.cmp] at hc
    exact IsR.div (IsR.coe 1) rfl (by exact_mod_cast hpos)
  · exact IsR.zero

end Cert.Hypergraph

end
-- ==== Proof.KernelHost.lean ====
/-
  The host operations of the kernel program, read stretch by stretch.

  Between the launch and the first kernel launch the program computes, on the host: the two index vectors (rows 0
  and 1 of the incidence array), the integer degree counts of the nodes and of the hyperedges (ones scattered into
  zeros), their reciprocals where positive (as [n, 1] columns), and the node features gathered by node index and
  scatter-added by hyperedge index.  Between the two launches it gathers the messages by hyperedge index and
  scatter-adds them by node index.  Each lemma below reads one buffer after one stretch of host operations from the
  buffers before the stretch; chained, they give every array a kernel launch finds as a term of the launch
  contents of the four arguments.  The index vectors, the gather's index column and the scatter's index column are
  the same terms as the reference's, so they are written with the reference's names for them.
-/
import proofs.«157976_j2559800508842_2_alg».proof.Proof.Gen.KernelIdeal.Frame
import proofs.«157976_j2559800508842_2_alg».proof.Proof.RefRead
import proofs.«157976_j2559800508842_2_alg».proof.Proof.KernelArrays
import proofs.«157976_j2559800508842_2_alg».proof.Proof.Degrees
import proofs.«157976_j2559800508842_2_alg».proof.Proof.LibKeepdimsColumn
import Idealize.ShloMosaic.Lib.StableHlo.Run

set_option maxRecDepth 16384

noncomputable section

namespace Cert.KernelIdeal.HostValue

open Cert.KernelIdeal Cert.KernelIdeal.Gen Cert.KernelIdeal.Arrays
open Cert.ReferenceIdeal.ReadP
open Idealize.ShloMosaic Idealize.ShloMosaic.TcCoe Idealize.SL.Sem Idealize.ShloMosaic.StableHlo
open Idealize.ShloMosaic.ValueIdx

local notation "dr(" b ")" => Proc.devRef Proc.tc b

/-- One stretch of host operations: reads the buffer after the stretch from the contents `W` before it. -/
local macro "stretch " ops:ident " from " W:term : tactic =>
  `(tactic| (show StableHlo.after $ops $W _ = _; generalize $W = V; after_results; try rfl))

/-- The integer degree count of an index vector: ones scattered into zeros. -/
def countOf {N : Shape} (d : ScatterDims N S2000000x1 S2000000) (hb : S_.BroadcastsInDim N ![]) (ix : IVec S2000000 32) :
    IVec N 32 :=
  Host.scatter d IntOp.addi (broadcastInDim N ![] hb (constantI S_ 32 0#32))
    (broadcastInDim S2000000x1 ![0] bcast_S2000000_S2000000x1_0 ix)
    (broadcastInDim S2000000 ![] bcast_S_S2000000 (constantI S_ 32 1#32))

/-- The reciprocal of the count where it is positive, zero elsewhere. -/
def recipOf {N : Shape} (hb : S_.BroadcastsInDim N ![]) (cnt : IVec N 32) : FVec Ideal N .f32 :=
  select (cmpi .sgt cnt (broadcastInDim N ![] hb (constantI S_ 32 0#32)))
    (Host.divf (broadcastInDim N ![] hb (constant (F := Ideal) S_ .f32 0x3F800000#32)) (sitofp (F := Ideal) .f32 cnt))
    (broadcastInDim N ![] hb (constant (F := Ideal) S_ .f32 0x00000000#32))

variable (m : (ℓ : Loc nD τ sig) → Buf (Elt Ideal) ℓ) (ρ : Dev nD → PrngReg) (c : Dev nD)

/-! ## After the first stretch -/

theorem l1_v1 : W1 m ρ c dr(main_v1) = val_main_v1 (F := Ideal) (W0 m ρ c dr(main_arg1)) := by
  stretch hostOps0 from (W0 m ρ c)
theorem l1_v3 : W1 m ρ c dr(main_v3) = val_main_v3 (F := Ideal) (W0 m ρ c dr(main_arg1)) := by
  stretch hostOps0 from (W0 m ρ c)
theorem l1_v10 : W1 m ρ c dr(main_v10)
    = countOf scatter_S50000_S2000000x1_S2000000_n_0_0_1 bcast_S_S50000 (val_main_v3 (F := Ideal) (W0 m ρ c dr(main_arg1))) := by
  stretch hostOps0 from (W0 m ρ c)
theorem l1_v12 : W1 m ρ c dr(main_v12)
    = cmpi .sgt (countOf scatter_S200000_S2000000x1_S2000000_n_0_0_1 bcast_S_S200000
        (val_main_v1 (F := Ideal) (W0 m ρ c dr(main_arg1)))) (broadcastInDim S200000 ![] bcast_S_S200000 (constantI S_ 32 0#32)) := by
  stretch hostOps0 from (W0 m ρ c)
theorem l1_v15 : W1 m ρ c dr(main_v15)
    = Host.divf (broadcastInDim S200000 ![] bcast_S_S200000 (constant (F := Ideal) S_ .f32 0x3F800000#32))
        (sitofp (F := Ideal) .f32 (countOf scatter_S200000_S2000000x1_S2000000_n_0_0_1 bcast_S_S200000
          (val_main_v1 (F := Ideal) (W0 m ρ c dr(main_arg1))))) := by
  stretch hostOps0 from (W0 m ρ c)
theorem l1_cst3 : W1 m ρ c dr(main_cst_3) = constant (F := Ideal) S_ .f32 0x00000000#32 := by
  stretch hostOps0 from (W0 m ρ c)
theorem l1_arg0 : W1 m ρ c dr(main_arg0) = W0 m ρ c dr(main_arg0) := by stretch hostOps0 from (W0 m ρ c)
theorem l1_arg2 : W1 m ρ c dr(main_arg2) = W0 m ρ c dr(main_arg2) := by stretch hostOps0 from (W0 m ρ c)
theorem l1_arg3 : W1 m ρ c dr(main_arg3) = W0 m ρ c dr(main_arg3) := by stretch hostOps0 from (W0 m ρ c)

/-! ## After the node-degree reciprocal (the first `where`) -/

theorem l2_v16 : W2 m ρ c dr(main_v16)
    = recipOf bcast_S_S200000 (countOf scatter_S200000_S2000000x1_S2000000_n_0_0_1 bcast_S_S200000
        (val_main_v1 (F := Ideal) (W0 m ρ c dr(main_arg1)))) := by
  have h : W2 m ρ c dr(main_v16) = select (W1 m ρ c dr(main_v12)) (W1 m ρ c dr(main_v15))
      (broadcastInDim S200000 ![] bcast_S_S200000 (W1 m ρ c dr(main_cst_3))) := by
    stretch hostOps0_1 from (W1 m ρ c)
  rw [h, l1_v12, l1_v15, l1_cst3]
  rfl
theorem l2_v10 : W2 m ρ c dr(main_v10)
    = countOf scatter_S50000_S2000000x1_S2000000_n_0_0_1 bcast_S_S50000 (val_main_v3 (F := Ideal) (W0 m ρ c dr(main_arg1))) :=
  (show W2 m ρ c dr(main_v10) = W1 m ρ c dr(main_v10) by stretch hostOps0_1 from (W1 m ρ c)).trans (l1_v10 m ρ c)
theorem l2_v1 : W2 m ρ c dr(main_v1) = val_main_v1 (F := Ideal) (W0 m ρ c dr(main_arg1)) :=
  (show W2 m ρ c dr(main_v1) = W1 m ρ c dr(main_v1) by stretch hostOps0_1 from (W1 m ρ c)).trans (l1_v1 m ρ c)
theorem l2_v3 : W2 m ρ c dr(main_v3) = val_main_v3 (F := Ideal) (W0 m ρ c dr(main_arg1)) :=
  (show W2 m ρ c dr(main_v3) = W1 m ρ c dr(main_v3) by stretch hostOps0_1 from (W1 m ρ c)).trans (l1_v3 m ρ c)
theorem l2_arg0 : W2 m ρ c dr(main_arg0) = W0 m ρ c dr(main_arg0) :=
  (show W2 m ρ c dr(main_arg0) = W1 m ρ c dr(main_arg0) by stretch hostOps0_1 from (W1 m ρ c)).trans (l1_arg0 m ρ c)
theorem l2_arg2 : W2 m ρ c dr(main_arg2) = W0 m ρ c dr(main_arg2) :=
  (show W2 m ρ c dr(main_arg2) = W1 m ρ c dr(main_arg2) by stretch hostOps0_1 from (W1 m ρ c)).trans (l1_arg2 m ρ c)
theorem l2_arg3 : W2 m ρ c dr(main_arg3) = W0 m ρ c dr(main_arg3) :=
  (show W2 m ρ c dr(main_arg3) = W1 m ρ c dr(main_arg3) by stretch hostOps0_1 from (W1 m ρ c)).trans (l1_arg3 m ρ c)

/-! ## After the third stretch -/

theorem l3_v17 : W3 m ρ c dr(main_v17)
    = shapeCast S200000x1 (recipOf bcast_S_S200000 (countOf scatter_S200000_S2000000x1_S2000000_n_0_0_1 bcast_S_S200000
        (val_main_v1 (F := Ideal) (W0 m ρ c dr(main_arg1))))) shapeCasts_S200000_S200000x1 := by
  have h : W3 m ρ c dr(main_v17) = shapeCast S200000x1 (W2 m ρ c dr(main_v16)) shapeCasts_S200000_S200000x1 := by
    stretch hostOps0_2 from (W2 m ρ c)
  rw [h, l2_v16]
theorem l3_v19 : W3 m ρ c dr(main_v19)
    = cmpi .sgt (countOf scatter_S50000_S2000000x1_S2000000_n_0_0_1 bcast_S_S50000
        (val_main_v3 (F := Ideal) (W0 m ρ c dr(main_arg1)))) (broadcastInDim S50000 ![] bcast_S_S50000 (constantI S_ 32 0#32)) := by
  have h : W3 m ρ c dr(main_v19) = cmpi .sgt (W2 m ρ c dr(main_v10))
      (broadcastInDim S50000 ![] bcast_S_S50000 (constantI S_ 32 0#32)) := by
    stretch hostOps0_2 from (W2 m ρ c)
  rw [h, l2_v10]
theorem l3_v22 : W3 m ρ c dr(main_v22)
    = Host.divf (broadcastInDim S50000 ![] bcast_S_S50000 (constant (F := Ideal) S_ .f32 0x3F800000#32))
        (sitofp (F := Ideal) .f32 (countOf scatter_S50000_S2000000x1_S2000000_n_0_0_1 bcast_S_S50000
          (val_main_v3 (F := Ideal) (W0 m ρ c dr(main_arg1))))) := by
  have h : W3 m ρ c dr(main_v22) = Host.divf (broadcastInDim S50000 ![] bcast_S_S50000 (constant (F := Ideal) S_ .f32 0x3F800000#32))
      (sitofp (F := Ideal) .f32 (W2 m ρ c dr(main_v10))) := by
    stretch hostOps0_2 from (W2 m ρ c)
  rw [h, l2_v10]
theorem l3_cst6 : W3 m ρ c dr(main_cst_6) = constant (F := Ideal) S_ .f32 0x00000000#32 := by
  stretch hostOps0_2 from (W2 m ρ c)
theorem l3_v1 : W3 m ρ c dr(main_v1) = val_main_v1 (F := Ideal) (W0 m ρ c dr(main_arg1)) :=
  (show W3 m ρ c dr(main_v1) = W2 m ρ c dr(main_v1) by stretch hostOps0_2 from (W2 m ρ c)).trans (l2_v1 m ρ c)
theorem l3_v3 : W3 m ρ c dr(main_v3) = val_main_v3 (F := Ideal) (W0 m ρ c dr(main_arg1)) :=
  (show W3 m ρ c dr(main_v3) = W2 m ρ c dr(main_v3) by stretch hostOps0_2 from (W2 m ρ c)).trans (l2_v3 m ρ c)
theorem l3_arg0 : W3 m ρ c dr(main_arg0) = W0 m ρ c dr(main_arg0) :=
  (show W3 m ρ c dr(main_arg0) = W2 m ρ c dr(main_arg0) by stretch hostOps0_2 from (W2 m ρ c)).trans (l2_arg0 m ρ c)
theorem l3_arg2 : W3 m ρ c dr(main_arg2) = W0 m ρ c dr(main_arg2) :=
  (show W3 m ρ c dr(main_arg2) = W2 m ρ c dr(main_arg2) by stretch hostOps0_2 from (W2 m ρ c)).trans (l2_arg2 m ρ c)
theorem l3_arg3 : W3 m ρ c dr(main_arg3) = W0 m ρ c dr(main_arg3) :=
  (show W3 m ρ c dr(main_arg3) = W2 m ρ c dr(main_arg3) by stretch hostOps0_2 from (W2 m ρ c)).trans (l2_arg3 m ρ c)

/-! ## After the hyperedge-degree reciprocal (the second `where`) -/

theorem l4_v23 : W4 m ρ c dr(main_v23)
    = recipOf bcast_S_S50000 (countOf scatter_S50000_S2000000x1_S2000000_n_0_0_1 bcast_S_S50000
        (val_main_v3 (F := Ideal) (W0 m ρ c dr(main_arg1)))) := by
  have h : W4 m ρ c dr(main_v23) = select (W3 m ρ c dr(main_v19)) (W3 m ρ c dr(main_v22))
      (broadcastInDim S50000 ![] bcast_S_S50000 (W3 m ρ c dr(main_cst_6))) := by
    stretch hostOps0_3 from (W3 m ρ c)
  rw [h, l3_v19, l3_v22, l3_cst6]
  rfl
theorem l4_v17 : W4 m ρ c dr(main_v17)
    = shapeCast S200000x1 (recipOf bcast_S_S200000 (countOf scatter_S200000_S2000000x1_S2000000_n_0_0_1 bcast_S_S200000
        (val_main_v1 (F := Ideal) (W0 m ρ c dr(main_arg1))))) shapeCasts_S200000_S200000x1 :=
  (show W4 m ρ c dr(main_v17) = W3 m ρ c dr(main_v17) by stretch hostOps0_3 from (W3 m ρ c)).trans (l3_v17 m ρ c)
theorem l4_v1 : W4 m ρ c dr(main_v1) = val_main_v1 (F := Ideal) (W0 m ρ c dr(main_arg1)) :=
  (show W4 m ρ c dr(main_v1) = W3 m ρ c dr(main_v1) by stretch hostOps0_3 from (W3 m ρ c)).trans (l3_v1 m ρ c)
theorem l4_v3 : W4 m ρ c dr(main_v3) = val_main_v3 (F := Ideal) (W0 m ρ c dr(main_arg1)) :=
  (show W4 m ρ c dr(main_v3) = W3 m ρ c dr(main_v3) by stretch hostOps0_3 from (W3 m ρ c)).trans (l3_v3 m ρ c)
theorem l4_arg0 : W4 m ρ c dr(main_arg0) = W0 m ρ c dr(main_arg0) :=
  (show W4 m ρ c dr(main_arg0) = W3 m ρ c dr(main_arg0) by stretch hostOps0_3 from (W3 m ρ c)).trans (l3_arg0 m ρ c)
theorem l4_arg2 : W4 m ρ c dr(main_arg2) = W0 m ρ c dr(main_arg2) :=
  (show W4 m ρ c dr(main_arg2) = W3 m ρ c dr(main_arg2) by stretch hostOps0_3 from (W3 m ρ c)).trans (l3_arg2 m ρ c)
theorem l4_arg3 : W4 m ρ c dr(main_arg3) = W0 m ρ c dr(main_arg3) :=
  (show W4 m ρ c dr(main_arg3) = W3 m ρ c dr(main_arg3) by stretch hostOps0_3 from (W3 m ρ c)).trans (l3_arg3 m ρ c)

/-! ## What the first launch finds -/

theorem l5_v34 : W5 m ρ c dr(main_v34)
    = (Host.scatterAdd (F := Ideal) (φ := .f32) Cert.ReferenceIdeal.scatter_S50000x128_S2000000x1_S2000000x128_1_0_0_1
        (val_main_v29 (F := Ideal)) (val_main_v30 (F := Ideal) (W0 m ρ c dr(main_arg1)))
        (Host.gather Cert.ReferenceIdeal.gather_S200000x128_S2000000x1_S2000000x128_1_0_n_n_0_1_1128 (W0 m ρ c dr(main_arg0))
          (val_main_v27 (F := Ideal) (W0 m ρ c dr(main_arg1)))) : FVec Ideal S50000x128 .f32) := by
  have h : W5 m ρ c dr(main_v34)
      = Host.scatterAdd scatter_S50000x128_S2000000x1_S2000000x128_1_0_0_1
          (broadcastInDim S50000x128 ![] bcast_S_S50000x128 (constant (F := Ideal) S_ .f32 0x00000000#32))
          (broadcastInDim S2000000x1 ![0] bcast_S2000000_S2000000x1_0 (W4 m ρ c dr(main_v3)))
          (Host.gather gather_S200000x128_S2000000x1_S2000000x128_1_0_n_n_0_1_1128 (W4 m ρ c dr(main_arg0))
            (broadcastInDim S2000000x1 ![0] bcast_S2000000_S2000000x1_0
              (select (cmpi .slt (W4 m ρ c dr(main_v1)) (broadcastInDim S2000000 ![] bcast_S_S2000000 (constantI S_ 32 0#32)))
                (addi (W4 m ρ c dr(main_v1)) (broadcastInDim S2000000 ![] bcast_S_S2000000 (constantI S_ 32 200000#32)))
                (W4 m ρ c dr(main_v1))))) := by
    stretch hostOps0_4 from (W4 m ρ c)
  rw [h, l4_v1, l4_v3, l4_arg0]
  rfl
theorem l5_v24 : W5 m ρ c dr(main_v24)
    = shapeCast S50000x1 (recipOf bcast_S_S50000 (countOf scatter_S50000_S2000000x1_S2000000_n_0_0_1 bcast_S_S50000
        (val_main_v3 (F := Ideal) (W0 m ρ c dr(main_arg1))))) shapeCasts_S50000_S50000x1 := by
  have h : W5 m ρ c dr(main_v24) = shapeCast S50000x1 (W4 m ρ c dr(main_v23)) shapeCasts_S50000_S50000x1 := by
    stretch hostOps0_4 from (W4 m ρ c)
  rw [h, l4_v23]
theorem l5_v17 : W5 m ρ c dr(main_v17)
    = shapeCast S200000x1 (recipOf bcast_S_S200000 (countOf scatter_S200000_S2000000x1_S2000000_n_0_0_1 bcast_S_S200000
        (val_main_v1 (F := Ideal) (W0 m ρ c dr(main_arg1))))) shapeCasts_S200000_S200000x1 :=
  (show W5 m ρ c dr(main_v17) = W4 m ρ c dr(main_v17) by stretch hostOps0_4 from (W4 m ρ c)).trans (l4_v17 m ρ c)
theorem l5_v1 : W5 m ρ c dr(main_v1) = val_main_v1 (F := Ideal) (W0 m ρ c dr(main_arg1)) :=
  (show W5 m ρ c dr(main_v1) = W4 m ρ c dr(main_v1) by stretch hostOps0_4 from (W4 m ρ c)).trans (l4_v1 m ρ c)
theorem l5_v3 : W5 m ρ c dr(main_v3) = val_main_v3 (F := Ideal) (W0 m ρ c dr(main_arg1)) :=
  (show W5 m ρ c dr(main_v3) = W4 m ρ c dr(main_v3) by stretch hostOps0_4 from (W4 m ρ c)).trans (l4_v3 m ρ c)
theorem l5_arg2 : W5 m ρ c dr(main_arg2) = W0 m ρ c dr(main_arg2) :=
  (show W5 m ρ c dr(main_arg2) = W4 m ρ c dr(main_arg2) by stretch hostOps0_4 from (W4 m ρ c)).trans (l4_arg2 m ρ c)
theorem l5_arg3 : W5 m ρ c dr(main_arg3) = W0 m ρ c dr(main_arg3) :=
  (show W5 m ρ c dr(main_arg3) = W4 m ρ c dr(main_arg3) by stretch hostOps0_4 from (W4 m ρ c)).trans (l4_arg3 m ρ c)

end Cert.KernelIdeal.HostValue

end
-- ==== Proof.LibGatherRows.lean ====
/-
  GATHER OF ROWS, READ AT AN ENTRY.

  A StableHLO gather that takes whole rows of a matrix `x : [N, C]` at a column of start indices
  `idx : [T, 1]` (offset axis 1, collapsed axis 0, start index map `[0]`, index vector on axis 1, slice
  sizes `[1, C]`) has at entry `(e, c)` the value `x[r, c]`, where `r` is the start index `idx[e, 0]` read
  as a signed integer and clamped into `[0, N - 1]` (`gather_rows_apply`).  The same gather of a vector
  `x : [N]` (no offset axis, slice sizes `[1]`) has at entry `e` the value `x[r]` (`gather_vec_apply`).

  Each is proved first for the record written out with these fields (`rowsDims`, `vecDims`) and then
  stated for ANY record of dimension numbers whose fields are the ones above, so that it applies to a
  record however it was written down.
-/
import Idealize.ShloMosaic.Lib.ValueIdx

noncomputable section

namespace Cert.GatherRows

open Idealize.ShloMosaic Idealize.ShloMosaic.ValueIdx

/-- the operand row an edge reads: its start index read signed and clamped into [0, N-1] -/
def rowAt {T w : ℕ} (N : ℕ) (hN : 0 < N) (idx : IVec ⟨2, ![T, 1]⟩ w) (e : Fin T) : Fin N :=
  ⟨min (idx (ix2 e (0 : Fin 1))).toInt.toNat (N - 1), by omega⟩

/-! ## Rows of a matrix -/

/-- The dimension numbers of a gather of rows: operand `[N, C]`, start indices `[T, 1]`, result `[T, C]`. -/
abbrev rowsDims (N C T : ℕ)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-- The start-indices entry result entry `(e, c)` reads: `(e, 0)`. -/
theorem rowsDims_siIdx {N C T : ℕ}
    (wf : GatherDims.WF ⟨2, ![N, C]⟩ ⟨2, ![T, 1]⟩ ⟨2, ![T, C]⟩ [1] [0] [] [0] [] 1 ![1, C])
    (e : Fin T) (c : Fin C) :
    (rowsDims N C T wf).siIdx (ix2 e c) ⟨List.idxOf (0 : Fin 2) (rowsDims N C T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of rows at the written-out record, read at an entry. -/
theorem gather_rowsDims_apply {α : Type} {N C T w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (c : Fin C) :
    Host.gather (rowsDims N C T wf) x idx (ix2 e c) = x (ix2 (rowAt N hN idx e) c) := by
  unfold Host.gather
  congr 1
  funext a
  refine Fin.ext ?_
  match a with
  | ⟨0, _⟩ =>
    -- the row axis: the clamped start, no batching and no offset coordinate
    show (rowsDims N C T wf).start (ix2 e c) idx 0 + (rowsDims N C T wf).batchCoord (ix2 e c) 0
      + (rowsDims N C T wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C T wf).startIndexMap from List.mem_singleton.mpr rfl)]
    rw [rowsDims_siIdx wf e c]
    rfl
  | ⟨1, _⟩ =>
    -- the column axis: start 0, no batching coordinate, the offset coordinate is the result's column
    show (rowsDims N C T wf).start (ix2 e c) idx 1 + (rowsDims N C T wf).batchCoord (ix2 e c) 1
      + (rowsDims N C T wf).offCoord (ix2 e c) 1 = c.val
    rw [GatherDims.batchCoord_eq_zero _ _ _ List.not_mem_nil]
    unfold GatherDims.start
    rw [dif_neg (show (1 : Fin 2) ∉ (rowsDims N C T wf).startIndexMap from
      fun h => Nat.one_ne_zero (congrArg Fin.val (List.mem_singleton.mp h)))]
    simp only [Nat.add_zero, Nat.zero_add]
    rfl

/-- THE GATHER OF ROWS READ AT `(e, c)`: row `rowAt N hN idx e` of the operand, column `c`; for any record
    with these dimension numbers. -/
theorem gather_rows_apply {α : Type} {N C T w : ℕ} (hN : 0 < N)
    (d : GatherDims ⟨2, ![N, C]⟩ ⟨2, ![T, 1]⟩ ⟨2, ![T, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![T, 1]⟩ w) (e : Fin T) (c : Fin C) :
    Host.gather d x idx (ix2 e c) = x (ix2 (rowAt N hN idx e) c) := by
  obtain ⟨od, cd, ob, sb, sm, iv, ss, wf⟩ := d
  simp only at h1 h2 h3 h4 h5 h6 h7
  subst h1 h2 h3 h4 h5 h6 h7
  exact gather_rowsDims_apply hN wf x idx e c

/-! ## Entries of a vector -/

/-- The dimension numbers of the same gather of a vector: operand `[N]`, start indices `[T, 1]`, result `[T]`. -/
abbrev vecDims (N T : ℕ)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The start-indices entry result entry `e` reads: `(e, 0)`. -/
theorem vecDims_siIdx {N T : ℕ}
    (wf : GatherDims.WF ⟨1, ![N]⟩ ⟨2, ![T, 1]⟩ ⟨1, ![T]⟩ [] [0] [] [0] [] 1 ![1]) (e : Fin T) :
    (vecDims N T wf).siIdx (ix1 e) ⟨List.idxOf (0 : Fin 1) (vecDims N T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of a vector at the written-out record, read at an entry. -/
theorem gather_vecDims_apply {α : Type} {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecDims N T wf) x idx (ix1 e) = x (ix1 (rowAt N hN idx e)) := by
  unfold Host.gather
  congr 1
  funext a
  obtain rfl : a = 0 := Subsingleton.elim _ _
  refine Fin.ext ?_
  show (vecDims N T wf).start (ix1 e) idx 0 + (vecDims N T wf).batchCoord (ix1 e) 0
    + (vecDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N T wf).startIndexMap from List.mem_singleton.mpr rfl)]
  rw [vecDims_siIdx wf e]
  rfl

/-- THE GATHER OF A VECTOR READ AT `e`: entry `rowAt N hN idx e` of the operand; for any record with these
    dimension numbers. -/
theorem gather_vec_apply {α : Type} {N T w : ℕ} (hN : 0 < N)
    (d : GatherDims ⟨1, ![N]⟩ ⟨2, ![T, 1]⟩ ⟨1, ![T]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![T, 1]⟩ w) (e : Fin T) :
    Host.gather d x idx (ix1 e) = x (ix1 (rowAt N hN idx e)) := by
  obtain ⟨od, cd, ob, sb, sm, iv, ss, wf⟩ := d
  simp only at h1 h2 h3 h4 h5 h6 h7
  subst h1 h2 h3 h4 h5 h6 h7
  exact gather_vecDims_apply hN wf x idx e

end Cert.GatherRows

end
-- ==== Proof.Algebra.lean ====
/-
  THE ONE LAW THAT JOINS THE TWO PROGRAMS.

  The kernel aggregates the node features over a hyperedge first, scales the aggregated row by the hyperedge's
  reciprocal degree β, and multiplies by the weights last:      ∑ₖ ((z + ∑ₑ x e k) · β) · w k.
  The reference multiplies every node's features by the weights first, aggregates the products over the hyperedge
  and scales last:                                              (z + ∑ₑ ∑ₖ x e k · w k) · β,
  with z the zero the aggregation starts from.  For REAL features, weights and β the two are equal: distribute the
  products over the sums and exchange the two finite sums.  (Over the extended reals with infinities the
  distributive law fails, so the reals are needed.)
-/
import proofs.«157976_j2559800508842_2_alg».proof.Proof.LibRealEntries

noncomputable section

open scoped BigOperators

namespace Cert.Hypergraph

open Cert.RealEntries

/-- Aggregate, scale, then multiply = multiply, aggregate, then scale, for real data. -/
theorem aggregate_then_weights {ι κ : Type} [Fintype κ] (L : Finset ι) (x : ι → κ → EReal) (w : κ → EReal) (β : EReal)
    (hx : ∀ e k, IsR (x e k)) (hw : ∀ k, IsR (w k)) (hβ : IsR β) :
    ∑ k : κ, ((0 + ∑ e ∈ L, x e k) * β) * w k = (0 + ∑ e ∈ L, ∑ k : κ, x e k * w k) * β := by
  choose x' hx' using hx
  choose w' hw' using hw
  obtain ⟨b, rfl⟩ := hβ
  have hx'' : x = fun e k => ((x' e k : ℝ) : EReal) := funext fun e => funext fun k => hx' e k
  have hw'' : w = fun k => ((w' k : ℝ) : EReal) := funext fun k => hw' k
  subst hx'' hw''
  simp only [zero_add]
  have hl : ∑ k : κ, ((∑ e ∈ L, ((x' e k : ℝ) : EReal)) * (b : EReal)) * ((w' k : ℝ) : EReal)
      = ((∑ k : κ, ((∑ e ∈ L, x' e k) * b) * w' k : ℝ) : EReal) := by
    rw [coe_sum]
    refine Finset.sum_congr rfl fun k _ => ?_
    rw [EReal.coe_mul, EReal.coe_mul, coe_sum]
  have hr : (∑ e ∈ L, ∑ k : κ, ((x' e k : ℝ) : EReal) * ((w' k : ℝ) : EReal)) * (b : EReal)
      = (((∑ e ∈ L, ∑ k : κ, x' e k * w' k) * b : ℝ) : EReal) := by
    rw [EReal.coe_mul, coe_sum]
    congr 1
    refine Finset.sum_congr rfl fun e _ => ?_
    rw [coe_sum]
    refine Finset.sum_congr rfl fun k _ => ?_
    rw [EReal.coe_mul]
  rw [hl, hr]
  congr 1
  simp only [Finset.sum_mul]
  rw [Finset.sum_comm]
  refine Finset.sum_congr rfl fun e _ => Finset.sum_congr rfl fun k _ => by ring

end Cert.Hypergraph

end
-- ==== Proof.Bridge.lean ====
/-
  THE TWO PROGRAMS COMPUTE ONE ARRAY.

  Over the extended reals, with E the incidence entries, r(e) the node row entry e gathers, s(e) the hyperedge row
  it gathers, L(g) the entries scattered onto hyperedge g and N(v) those scattered onto node v:

    kernel      m[g,c] = ∑ₖ ((0 + ∑_{e∈L(g)} X[r(e),k]) · β[g]) · W[k,c]
    reference   m[g,c] = (0 + ∑_{e∈L(g)} ∑ₖ X[r(e),k] · W[k,c]) · β[g]

  with β the reciprocal hyperedge degree (1/n where the degree n is positive, 0 elsewhere: a real number).  For real
  features and weights the two are equal (`messages_eq`, by the interchange law of the algebra module).  After that
  both programs gather the messages by hyperedge, scatter-add them by node, scale row v by the reciprocal node
  degree, add the bias and apply the leaky rectifier: the same operations entry by entry (`outputs_eq`).
-/
import proofs.«157976_j2559800508842_2_alg».proof.Proof.RefRead
import proofs.«157976_j2559800508842_2_alg».proof.Proof.KernelArrays
import proofs.«157976_j2559800508842_2_alg».proof.Proof.LibScatterRows
import proofs.«157976_j2559800508842_2_alg».proof.Proof.LibGatherRows
import proofs.«157976_j2559800508842_2_alg».proof.Proof.LibRealEntries
import proofs.«157976_j2559800508842_2_alg».proof.Proof.Algebra
import proofs.«157976_j2559800508842_2_alg».proof.Proof.Degrees

set_option maxRecDepth 16384

noncomputable section

open scoped BigOperators

namespace Cert.Hypergraph

open Cert.ReferenceIdeal Cert.ReferenceIdeal.Gen Cert.ReferenceIdeal.ReadP
open Idealize.ShloMosaic Idealize.ShloMosaic.ValueIdx
open Cert.ScatterRows Cert.GatherRows Cert.RealEntries
open Cert.KernelIdeal.Arrays

/-- The reference's reciprocal hyperedge degree is a real number. -/
theorem binv_real (A : IVec S2x2000000 32) (g : Fin 50000) : IsR (val_main_v21 (F := Ideal) A (ix1 g)) :=
  recip_real scatter_S50000_S2000000x1_S2000000_n_0_0_1 rfl rfl rfl rfl (val_main_v15 (F := Ideal) A)
    (val_main_v14 (F := Ideal)) (val_main_v17 (F := Ideal)) (val_main_v19 (F := Ideal)) (val_main_call1_v1 (F := Ideal))
    (val_main_v5 (F := Ideal)) (fun _ => rfl) (fun _ => rfl) (fun _ => rfl) (fun _ => rfl) (fun _ => rfl) (ix1 g)

/-- The reference's aggregated products at (g, c). -/
theorem ref_agg_apply (X : FVec Ideal S200000x128 .f32) (A : IVec S2x2000000 32) (Wt : FVec Ideal S128x128 .f32)
    (g : Fin 50000) (c : Fin 128) :
    val_main_v31 (F := Ideal) X A Wt (ix2 g c)
      = 0 + ∑ e ∈ landing (val_main_v30 (F := Ideal) A) g.val,
          ∑ k : Fin 128, X (ix2 (rowAt 200000 (by decide) (val_main_v27 (F := Ideal) A) e) k) * Wt (ix2 k c) := by
  unfold val_main_v31
  refine (scatterAdd_rows_apply (N := 50000) (C := 128) (T := 2000000) scatter_S50000x128_S2000000x1_S2000000x128_1_0_0_1
    rfl rfl rfl rfl _ _ _ g c).trans ?_
  refine congrArg₂ (· + ·) ?_ ?_
  · exact Ideal.ofBits_zero_f32
  · refine Finset.sum_congr rfl fun e _ => ?_
    unfold val_main_v28
    refine (gather_rows_apply (N := 200000) (C := 128) (T := 2000000) (by decide)
      gather_S200000x128_S2000000x1_S2000000x128_1_0_n_n_0_1_1128 rfl rfl rfl rfl rfl rfl rfl _ _ e c).trans ?_
    rw [val_main_v4_apply]
    refine Finset.sum_congr rfl fun k _ => ?_
    refine congrArg₂ (· * ·) ?_ ?_
    · exact congrArg X (funext fun a => Fin.ext (by match a with | ⟨0, _⟩ => rfl | ⟨1, _⟩ => rfl))
    · exact congrArg Wt (funext fun a => Fin.ext (by match a with | ⟨0, _⟩ => rfl | ⟨1, _⟩ => rfl))

/-- The kernel program's aggregated features at (g, k). -/
theorem ker_agg_apply (X : FVec Ideal S200000x128 .f32) (A : IVec S2x2000000 32) (g : Fin 50000) (k : Fin 128) :
    Host.scatterAdd scatter_S50000x128_S2000000x1_S2000000x128_1_0_0_1 (val_main_v29 (F := Ideal)) (val_main_v30 (F := Ideal) A)
        (Host.gather gather_S200000x128_S2000000x1_S2000000x128_1_0_n_n_0_1_1128 X (val_main_v27 (F := Ideal) A)) (ix2 g k)
      = 0 + ∑ e ∈ landing (val_main_v30 (F := Ideal) A) g.val,
          X (ix2 (rowAt 200000 (by decide) (val_main_v27 (F := Ideal) A) e) k) := by
  refine (scatterAdd_rows_apply (N := 50000) (C := 128) (T := 2000000) scatter_S50000x128_S2000000x1_S2000000x128_1_0_0_1
    rfl rfl rfl rfl _ _ _ g k).trans ?_
  refine congrArg₂ (· + ·) ?_ ?_
  · exact Ideal.ofBits_zero_f32
  · refine Finset.sum_congr rfl fun e _ => ?_
    exact gather_rows_apply (N := 200000) (C := 128) (T := 2000000) (by decide)
      gather_S200000x128_S2000000x1_S2000000x128_1_0_n_n_0_1_1128 rfl rfl rfl rfl rfl rfl rfl _ _ e k

/-- THE MESSAGES ARE ONE ARRAY: the kernel's (aggregate, scale, multiply by the weights) is the reference's (multiply by
    the weights, aggregate, scale), for real features and weights. -/
theorem messages_eq (X : FVec Ideal S200000x128 .f32) (A : IVec S2x2000000 32) (Wt : FVec Ideal S128x128 .f32)
    (hX : AllReal X) (hW : AllReal Wt)
    (binv : S50000x1.Idx → EReal)
    (hbinv : ∀ g : Fin 50000, binv (ix2 g (0 : Fin 1)) = val_main_v21 (F := Ideal) A (ix1 g)) :
    messages (Host.scatterAdd scatter_S50000x128_S2000000x1_S2000000x128_1_0_0_1 (val_main_v29 (F := Ideal))
        (val_main_v30 (F := Ideal) A)
        (Host.gather gather_S200000x128_S2000000x1_S2000000x128_1_0_n_n_0_1_1128 X (val_main_v27 (F := Ideal) A))) binv Wt
      = val_main_v34 (F := Ideal) X A Wt := by
  funext i
  obtain ⟨g, c, rfl⟩ : ∃ (g : Fin 50000) (c : Fin 128), i = ix2 g c := ⟨i 0, i 1, eq_ix2 i⟩
  rw [val_main_v34_apply, val_main_v33_apply, val_main_v32_apply]
  have hi : idx_main_v32 (idx_main_v33 (ix2 g c)) = ix1 g :=
    funext fun a => Fin.ext (by match a with | ⟨0, _⟩ => rfl)
  rw [hi, ref_agg_apply]
  show ∑ k : Fin 128, (Host.scatterAdd scatter_S50000x128_S2000000x1_S2000000x128_1_0_0_1 (val_main_v29 (F := Ideal))
        (val_main_v30 (F := Ideal) A)
        (Host.gather gather_S200000x128_S2000000x1_S2000000x128_1_0_n_n_0_1_1128 X (val_main_v27 (F := Ideal) A)) (ix2 g k)
      * binv (ix2 g (0 : Fin 1))) * Wt (ix2 k c) = _ * val_main_v21 (F := Ideal) A (ix1 g)
  rw [hbinv g]
  simp only [ker_agg_apply]
  exact aggregate_then_weights _ _ _ _ (fun e k => hX _) (fun k => hW _) (binv_real A g)

/-- THE RESULTS ARE ONE ARRAY, given the same raw sums and reciprocal node degrees: both programs form
    t = raw[v,c] · dinv[v] + b[c] and keep t where t ≥ 0, slope · t elsewhere. -/
theorem outputs_eq (X : FVec Ideal S200000x128 .f32) (A : IVec S2x2000000 32) (Wt : FVec Ideal S128x128 .f32)
    (b : FVec Ideal S128 .f32) (dinv : S200000x1.Idx → EReal)
    (hdinv : ∀ v : Fin 200000, dinv (ix2 v (0 : Fin 1)) = val_main_v13 (F := Ideal) A (ix1 v)) :
    outputs (val_main_v44 (F := Ideal) X A Wt) dinv b = val_main_v55 (F := Ideal) X A Wt b := by
  funext i
  obtain ⟨v, c, rfl⟩ : ∃ (v : Fin 200000) (c : Fin 128), i = ix2 v c := ⟨i 0, i 1, eq_ix2 i⟩
  rw [val_main_v55_apply, val_main_v52_apply, val_main_v54_apply, val_main_v53_apply, val_main_cst_14_apply,
    val_main_v51_apply, val_main_cst_13_apply, val_main_v50_apply, val_main_v47_apply, val_main_v46_apply,
    val_main_v45_apply, val_main_v49_apply, val_main_v48_apply]
  have h1 : idx_main_v45 (idx_main_v46 (ix2 v c)) = ix1 v :=
    funext fun a => Fin.ext (by match a with | ⟨0, _⟩ => rfl)
  have h2 : idx_main_v48 (idx_main_v49 (ix2 v c)) = ix1 c :=
    funext fun a => Fin.ext (by match a with | ⟨0, _⟩ => rfl)
  rw [h1, h2, ← hdinv v]
  rfl

end Cert.Hypergraph

end
-- ==== Proof.KernelValue.lean ====
/-
  THE KERNEL PROGRAM'S RESULT, AS A TERM OF ITS ARGUMENTS — AND THAT TERM IS THE REFERENCE'S.

  The first launch leaves the messages (blocks to arrays); the host operations between the launches gather them by
  hyperedge index and scatter-add them by node index; the second launch leaves the result.  Chained with the host
  stretches before the first launch this gives the result array as a closed term of the four argument arrays.
  The reciprocal-degree columns of the kernel program (integer counts) are the reference's reciprocal degrees
  (float counts) entry by entry; with real features and weights the messages agree, and after that the two programs
  apply the same operations: the result is the reference's result.
-/
import proofs.«157976_j2559800508842_2_alg».proof.Proof.KernelHost
import proofs.«157976_j2559800508842_2_alg».proof.Proof.Bridge

set_option maxRecDepth 16384

noncomputable section

namespace Cert.KernelIdeal.HostValue

open Cert.KernelIdeal Cert.KernelIdeal.Gen Cert.KernelIdeal.Arrays
open Cert.ReferenceIdeal.ReadP
open Idealize.ShloMosaic Idealize.ShloMosaic.TcCoe Idealize.SL.Sem Idealize.ShloMosaic.StableHlo
open Idealize.ShloMosaic.ValueIdx Cert.RealEntries

local notation "dr(" b ")" => Proc.devRef Proc.tc b

local macro "stretch " ops:ident " from " W:term : tactic =>
  `(tactic| (show StableHlo.after $ops $W _ = _; generalize $W = V; after_results; try rfl))

variable (m : (ℓ : Loc nD τ sig) → Buf (Elt Ideal) ℓ) (ρ : Dev nD → PrngReg) (c : Dev nD)

/-! ## Across the first launch -/

theorem l6_v35 : W6 m ρ c dr(main_v35)
    = messages (W5 m ρ c dr(main_v34)) (W5 m ρ c dr(main_v24)) (W5 m ρ c dr(main_arg2)) :=
  (W6_arr m ρ c 3).trans (final0 (V5 m ρ) c)
theorem l6_v1 : W6 m ρ c dr(main_v1) = val_main_v1 (F := Ideal) (W0 m ρ c dr(main_arg1)) :=
  (W6_of_ne m ρ c main_v1 (by decide)).trans (l5_v1 m ρ c)
theorem l6_v3 : W6 m ρ c dr(main_v3) = val_main_v3 (F := Ideal) (W0 m ρ c dr(main_arg1)) :=
  (W6_of_ne m ρ c main_v3 (by decide)).trans (l5_v3 m ρ c)
theorem l6_v17 : W6 m ρ c dr(main_v17)
    = shapeCast S200000x1 (recipOf bcast_S_S200000 (countOf scatter_S200000_S2000000x1_S2000000_n_0_0_1 bcast_S_S200000
        (val_main_v1 (F := Ideal) (W0 m ρ c dr(main_arg1))))) shapeCasts_S200000_S200000x1 :=
  (W6_of_ne m ρ c main_v17 (by decide)).trans (l5_v17 m ρ c)
theorem l6_arg3 : W6 m ρ c dr(main_arg3) = W0 m ρ c dr(main_arg3) :=
  (W6_of_ne m ρ c main_arg3 (by decide)).trans (l5_arg3 m ρ c)

/-! ## What the second launch finds -/

theorem l7_v45 : W7 m ρ c dr(main_v45)
    = (Host.scatterAdd (F := Ideal) (φ := .f32) Cert.ReferenceIdeal.scatter_S200000x128_S2000000x1_S2000000x128_1_0_0_1
        (val_main_v42 (F := Ideal)) (val_main_v43 (F := Ideal) (W0 m ρ c dr(main_arg1)))
        (Host.gather Cert.ReferenceIdeal.gather_S50000x128_S2000000x1_S2000000x128_1_0_n_n_0_1_1128 (W6 m ρ c dr(main_v35))
          (val_main_v40 (F := Ideal) (W0 m ρ c dr(main_arg1)))) : FVec Ideal S200000x128 .f32) := by
  have h : W7 m ρ c dr(main_v45)
      = Host.scatterAdd scatter_S200000x128_S2000000x1_S2000000x128_1_0_0_1
          (broadcastInDim S200000x128 ![] bcast_S_S200000x128 (constant (F := Ideal) S_ .f32 0x00000000#32))
          (broadcastInDim S2000000x1 ![0] bcast_S2000000_S2000000x1_0 (W6 m ρ c dr(main_v1)))
          (Host.gather gather_S50000x128_S2000000x1_S2000000x128_1_0_n_n_0_1_1128 (W6 m ρ c dr(main_v35))
            (broadcastInDim S2000000x1 ![0] bcast_S2000000_S2000000x1_0
              (select (cmpi .slt (W6 m ρ c dr(main_v3)) (broadcastInDim S2000000 ![] bcast_S_S2000000 (constantI S_ 32 0#32)))
                (addi (W6 m ρ c dr(main_v3)) (broadcastInDim S2000000 ![] bcast_S_S2000000 (constantI S_ 32 50000#32)))
                (W6 m ρ c dr(main_v3))))) := by
    stretch hostOps1 from (W6 m ρ c)
  rw [h, l6_v1, l6_v3]
  rfl
theorem l7_v17 : W7 m ρ c dr(main_v17)
    = shapeCast S200000x1 (recipOf bcast_S_S200000 (countOf scatter_S200000_S2000000x1_S2000000_n_0_0_1 bcast_S_S200000
        (val_main_v1 (F := Ideal) (W0 m ρ c dr(main_arg1))))) shapeCasts_S200000_S200000x1 :=
  (show W7 m ρ c dr(main_v17) = W6 m ρ c dr(main_v17) by stretch hostOps1 from (W6 m ρ c)).trans (l6_v17 m ρ c)
theorem l7_arg3 : W7 m ρ c dr(main_arg3) = W0 m ρ c dr(main_arg3) :=
  (show W7 m ρ c dr(main_arg3) = W6 m ρ c dr(main_arg3) by stretch hostOps1 from (W6 m ρ c)).trans (l6_arg3 m ρ c)

/-- The result array after the second launch. -/
theorem l8_v46 : W8 m ρ c dr(main_v46)
    = outputs (W7 m ρ c dr(main_v45)) (W7 m ρ c dr(main_v17)) (W7 m ρ c dr(main_arg3)) :=
  (W8_arr m ρ c 3).trans (final1 (V7 m ρ) c)

/-! ## The reciprocal-degree columns are the reference's reciprocal degrees -/

theorem binv_col (A : IVec S2x2000000 32) (g : Fin 50000) :
    shapeCast S50000x1 (recipOf bcast_S_S50000 (countOf scatter_S50000_S2000000x1_S2000000_n_0_0_1 bcast_S_S50000
        (val_main_v3 (F := Ideal) A))) shapeCasts_S50000_S50000x1 (ix2 g (0 : Fin 1))
      = val_main_v21 (F := Ideal) A (ix1 g) :=
  (Cert.KeepdimsColumn.shapeCast_a_a1_apply _ shapeCasts_S50000_S50000x1 g (0 : Fin 1)).trans
    (congrFun (Cert.Hypergraph.recip_vec_eq (N := 50000) (T := 2000000)
      scatter_S50000_S2000000x1_S2000000_n_0_0_1 Cert.ReferenceIdeal.scatter_S50000_S2000000x1_S2000000_n_0_0_1
      rfl rfl rfl rfl rfl rfl rfl rfl (by norm_num) (val_main_v15 (F := Ideal) A)
      (broadcastInDim S50000 ![] bcast_S_S50000 (constantI S_ 32 0#32))
      (broadcastInDim S50000 ![] bcast_S_S50000 (constantI S_ 32 0#32))
      (broadcastInDim S2000000 ![] bcast_S_S2000000 (constantI S_ 32 1#32))
      (val_main_v14 (F := Ideal)) (val_main_v17 (F := Ideal)) (val_main_v19 (F := Ideal)) (val_main_call1_v1 (F := Ideal))
      (val_main_v5 (F := Ideal))
      (fun _ => rfl) (fun _ => rfl) (fun _ => rfl) (fun _ => rfl) (fun _ => rfl) (fun _ => rfl)) (ix1 g))

theorem dinv_col (A : IVec S2x2000000 32) (v : Fin 200000) :
    shapeCast S200000x1 (recipOf bcast_S_S200000 (countOf scatter_S200000_S2000000x1_S2000000_n_0_0_1 bcast_S_S200000
        (val_main_v1 (F := Ideal) A))) shapeCasts_S200000_S200000x1 (ix2 v (0 : Fin 1))
      = val_main_v13 (F := Ideal) A (ix1 v) :=
  (Cert.KeepdimsColumn.shapeCast_a_a1_apply _ shapeCasts_S200000_S200000x1 v (0 : Fin 1)).trans
    (congrFun (Cert.Hypergraph.recip_vec_eq (N := 200000) (T := 2000000)
      scatter_S200000_S2000000x1_S2000000_n_0_0_1 Cert.ReferenceIdeal.scatter_S200000_S2000000x1_S2000000_n_0_0_1
      rfl rfl rfl rfl rfl rfl rfl rfl (by norm_num) (val_main_v7 (F := Ideal) A)
      (broadcastInDim S200000 ![] bcast_S_S200000 (constantI S_ 32 0#32))
      (broadcastInDim S200000 ![] bcast_S_S200000 (constantI S_ 32 0#32))
      (broadcastInDim S2000000 ![] bcast_S_S2000000 (constantI S_ 32 1#32))
      (val_main_v6 (F := Ideal)) (val_main_v9 (F := Ideal)) (val_main_v11 (F := Ideal)) (val_main_call0_v1 (F := Ideal))
      (val_main_v5 (F := Ideal))
      (fun _ => rfl) (fun _ => rfl) (fun _ => rfl) (fun _ => rfl) (fun _ => rfl) (fun _ => rfl)) (ix1 v))

/-! ## The result -/

/-- THE KERNEL PROGRAM'S RESULT IS THE REFERENCE'S TERM of the launch contents of the arguments, when the features and
    the weights are real numbers. -/
theorem result_eq (hX : AllReal (φ := .f32) (W0 m ρ c dr(main_arg0))) (hW : AllReal (φ := .f32) (W0 m ρ c dr(main_arg2))) :
    W8 m ρ c dr(main_v46)
      = val_main_v55 (F := Ideal) (W0 m ρ c dr(main_arg0)) (W0 m ρ c dr(main_arg1)) (W0 m ρ c dr(main_arg2))
          (W0 m ρ c dr(main_arg3)) := by
  rw [l8_v46, l7_v45, l7_v17, l7_arg3, l6_v35, l5_v34, l5_v24, l5_arg2]
  rw [Cert.Hypergraph.messages_eq (W0 m ρ c dr(main_arg0)) (W0 m ρ c dr(main_arg1)) (W0 m ρ c dr(main_arg2)) hX hW _
    (binv_col (W0 m ρ c dr(main_arg1)))]
  exact Cert.Hypergraph.outputs_eq (W0 m ρ c dr(main_arg0)) (W0 m ρ c dr(main_arg1)) (W0 m ρ c dr(main_arg2))
    (W0 m ρ c dr(main_arg3)) _ (dinv_col (W0 m ρ c dr(main_arg1)))

end Cert.KernelIdeal.HostValue

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«157976_j2559800508842_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.FiniteInputs.lean ====
/-
  FINITE INPUTS ARE REAL NUMBERS.

  The precondition says that the conjunction, over all entries of each float input, of "|entry| < +∞" is true.  Over
  the extended reals an entry with |entry| < +∞ is neither infinity, hence a real number.  The features X and the
  weights W are the two inputs whose realness the interchange law needs.
-/
import proofs.«157976_j2559800508842_2_alg».proof.Pre_finite_inputs
import proofs.«157976_j2559800508842_2_alg».proof.Proof.Gen.Pre_finite_inputs
import proofs.«157976_j2559800508842_2_alg».proof.Proof.LibFiniteInputs
import Idealize.ShloMosaic.Lib.Affine

noncomputable section

namespace Cert.Hypergraph

open Idealize.ShloMosaic Idealize.ShloMosaic.ValueIdx Cert.RealEntries
open Cert.Pre_finite_inputs Cert.Pre_finite_inputs.Gen

instance : Subsingleton S_.Idx := ⟨fun a b => funext fun d => d.elim0⟩

/-- Under the precondition every feature and every weight is a real number. -/
theorem real_of_pre (X : FVec Ideal S200000x128 .f32) (A : IVec S2x2000000 32) (Wt : FVec Ideal S128x128 .f32)
    (b : FVec Ideal S128 .f32) (h : Cert.Pre_finite_inputs.fn (F := Ideal) X A Wt b = fun _ => 1#1) :
    AllReal X ∧ AllReal Wt := by
  have h0 := congrFun h ix0
  dsimp only [Cert.Pre_finite_inputs.fn] at h0
  obtain ⟨h12, -⟩ := IntOp.andi_eq_one.mp h0
  obtain ⟨hX, hW⟩ := IntOp.andi_eq_one.mp h12
  exact ⟨allReal_of_all_finite X _ _ _ _ ix0 hX, allReal_of_all_finite Wt _ _ _ _ ix0 hW⟩

end Cert.Hypergraph

end
-- ==== Proof.lean ====
/-
  A hypergraph convolution, kernel against reference, equal over the extended reals.

  Inputs: node features X [200000, 128], an incidence list A [2, 2000000] (row 0 the node, row 1 the hyperedge of each
  entry), weights W [128, 128], bias b [128].  With r(e), s(e) the node and hyperedge rows entry e gathers (its index
  wrapped when negative and clamped), L(g) and N(v) the entries whose raw index is hyperedge g, node v, and
  β[g], δ[v] the reciprocals of the degrees |L(g)|, |N(v)| where positive and 0 elsewhere, both programs compute

      out[v,c] = lrelu( (∑_{e∈N(v)} m[s(e),c]) · δ[v] + b[c] ),

  the kernel program with  m[g,c] = ∑ₖ ((∑_{e∈L(g)} X[r(e),k]) · β[g]) · W[k,c]  (aggregate, scale, then one small
  matrix product on the matrix unit), the reference with  m[g,c] = (∑_{e∈L(g)} (X·W)[r(e),c]) · β[g].  The two
  message arrays are equal for REAL features and weights (the distributive law, which fails at infinities: this is
  where the precondition is used); the kernel program counts degrees in integers and the reference in floats, and
  both counts are the number of entries.  Everything after the messages is the same operations on both sides.

  The kernel program's run is its frame run with the result array named; each launch is read from blocks to arrays
  and each stretch of host operations from the buffers before it; the reference's run is its list of host operations
  read back.
-/
import proofs.«157976_j2559800508842_2_alg».proof.Defs
import proofs.«157976_j2559800508842_2_alg».proof.Proof.Gen.Kernel
import proofs.«157976_j2559800508842_2_alg».proof.Proof.Gen.Kernel.Skeleton
import proofs.«157976_j2559800508842_2_alg».proof.Proof.Gen.Kernel.Launch
import proofs.«157976_j2559800508842_2_alg».proof.Proof.Gen.Kernel.Points
import proofs.«157976_j2559800508842_2_alg».proof.Proof.Gen.Kernel.Frame
import proofs.«157976_j2559800508842_2_alg».proof.Proof.Gen.KernelIdeal
import proofs.«157976_j2559800508842_2_alg».proof.Proof.Gen.KernelIdeal.Skeleton
import proofs.«157976_j2559800508842_2_alg».proof.Proof.Gen.KernelIdeal.Launch
import proofs.«157976_j2559800508842_2_alg».proof.Proof.Gen.KernelIdeal.Points
import proofs.«157976_j2559800508842_2_alg».proof.Proof.Gen.KernelIdeal.Frame
import proofs.«157976_j2559800508842_2_alg».proof.Proof.Gen.ReferenceIdeal
import proofs.«157976_j2559800508842_2_alg».proof.Proof.Gen.Pre_finite_inputs
import proofs.«157976_j2559800508842_2_alg».proof.Proof.RefRun
import proofs.«157976_j2559800508842_2_alg».proof.Proof.RefRead
import proofs.«157976_j2559800508842_2_alg».proof.Proof.KernelRun
import proofs.«157976_j2559800508842_2_alg».proof.Proof.KernelValue
import proofs.«157976_j2559800508842_2_alg».proof.Proof.FiniteInputs
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the reference's term of the arguments in their result arrays. -/
theorem algebraic : Cert.algebraic_KernelIdeal_ReferenceIdeal := by
  intro m ρ m' ρ' hpre hagree
  refine ⟨fun c => Cert.ReferenceIdeal.ReadP.val_main_v55 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.RunValue.run_main m ρ)
    obtain ⟨hX, hW⟩ := Cert.Hypergraph.real_of_pre _ _ _ _ (hpre c)
    exact Cert.KernelIdeal.HostValue.result_eq m ρ c hX hW
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v55_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
